-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S429x400 : S_.BroadcastsInDim S429x400 (![] : Fin 0 → Fin S429x400.rank)
  reducesTo_S429x400_S_d0_1 : S429x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S401x1 : S_.BroadcastsInDim S401x1 (![] : Fin 0 → Fin S401x1.rank)
  reducesTo_S401x1_S_d0_1 : S401x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S400x400 .f32) (main_arg9 : FVec F S400 .f32) (main_arg10 : FVec F S401x1 .f32) (main_arg11 : FVec F S1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S401x1 .f32 := Host.absf main_arg10
  let main_cst_16 : FVec F S_ .f32 := constant S_ .f32 0x7F800000#32
  let main_v45 : FVec F S401x1 .f32 := broadcastInDim S401x1 ![] bcast_S_S401x1 main_cst_16
  let main_v46 : IVec S401x1 1 := cmpf .olt main_v44 main_v45
  let main_c_17 : IVec S_ 1 := constantI S_ 1 1#1
  let main_v47 : IVec S_ 1 := (fun x v => Host.reduce IntOp.andi x v reducesTo_S401x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S26x100000x16 .f32) (main_arg6 : FVec F S429x400 .f32) (main_arg7 : FVec F S400 .f32) (main_arg8 : FVec F S400x400 .f32) (main_arg9 : FVec F S400 .f32) (main_arg10 : FVec F S401x1 .f32) (main_arg11 : FVec F S1 .f32) (main_v13 : IVec S_ 1) (main_v16 : IVec S26x100000x1 1) : IVec S_ 1 :=
  let main_c_5 : IVec S_ 1 := constantI S_ 1 1#1
  let main_v17 : IVec S_ 1 := (fun x v => Host.reduce IntOp.andi x v reducesTo_S26x100000x1_S_d0_1_2 h_S_) main_v16 main_c_5
  let main_v18 : IVec S_ 1 := andi main_v13 main_v17
  let main_v19 : FVec F S26x100000x16 .f32 := Host.absf main_arg5
  let main_cst_6 : FVec F S_ .f32 := constant S_ .f32 0x7F800000#32
  let main_v20 : FVec F S26x100000x16 .f32 := broadcastInDim S26x100000x16 ![] bcast_S_S26x100000x16 main_cst_6
  let main_v21 : IVec S26x100000x16 1 := cmpf .olt main_v19 main_v20
  let main_c_7 : IVec S_ 1 := constantI S_ 1 1#1
  let main_v22 : IVec S_ 1 := (fun x v => Host.reduce IntOp.andi x v reducesTo_S26x100000x16_S_d0_1_2 h_S_) main_v21 main_c_7
  let main_v23 : IVec S_ 1 := andi main_v18 main_v22
  let main_v24 : FVec F S429x400 .f32 := Host.absf main_arg6
  let main_cst_8 : FVec F S_ .f32 := constant S_ .f32 0x7F800000#32
  let main_v25 : FVec F S429x400 .f32 := broadcastInDim S429x400 ![] bcast_S_S429x400 main_cst_8
  let main_v26 : IVec S429x400 1 := cmpf .olt main_v24 main_v25
  let main_c_9 : IVec S_ 1 := constantI S_ 1 1#1
  let main_v27 : IVec S_ 1 := (fun x v => Host.reduce IntOp.andi x v reducesTo_S429x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S16384x13 .f32) (main_arg1 : IVec S16384x26 32) (main_arg2 : FVec F S13x1 .f32) (main_arg3 : FVec F S1 .f32) (main_arg4 : FVec F S26x100000x1 .f32) (main_arg5 : FVec F S26x100000x16 .f32) (main_arg6 : FVec F S429x400 .f32) (main_arg7 : FVec F S400 .f32) (main_arg8 : FVec F S400x400 .f32) (main_arg9 : FVec F S400 .f32) (main_arg10 : FVec F S401x1 .f32) (main_arg11 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S13x1 .f32 := Host.absf main_arg2
  let main_cst_0 : FVec F S_ .f32 := constant S_ .f32 0x7F800000#32
  let main_v5 : FVec F S13x1 .f32 := broadcastInDim S13x1 ![] bcast_S_S13x1 main_cst_0
  let main_v6 : IVec S13x1 1 := cmpf .olt main_v4 main_v5
  let main_c_1 : IVec S_ 1 := constantI S_ 1 1#1
  let main_v7 : IVec S_ 1 := (fun x v => Host.reduce IntOp.andi x v reducesTo_S13x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S26x100000x1 .f32 := Host.absf main_arg4
  let main_cst_4 : FVec F S_ .f32 := constant S_ .f32 0x7F800000#32
  let main_v15 : FVec F S26x100000x1 .f32 := broadcastInDim S26x100000x1 ![] bcast_S_S26x100000x1 main_cst_4
  let main_v16 : IVec S26x100000x1 1 := cmpf .olt main_v14 main_v15
  fn_part1 (F := F) main_arg5 main_arg6 main_arg7 main_arg8 main_arg9 main_arg10 main_arg11 main_v13 main_v16
-- ==== Kernel.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩
abbrev S26x16384 : Shape := ⟨2, ![26, 16384]⟩
abbrev S26x16384x1 : Shape := ⟨3, ![26, 16384, 1]⟩
abbrev S16384x26x1 : Shape := ⟨3, ![16384, 26, 1]⟩
abbrev S26x16384x16 : Shape := ⟨3, ![26, 16384, 16]⟩
abbrev S16384x26x16 : Shape := ⟨3, ![16384, 26, 16]⟩
abbrev S16384x416 : Shape := ⟨2, ![16384, 416]⟩
abbrev S16x16 : Shape := ⟨2, ![16, 16]⟩
abbrev S1x16x1x16 : Shape := ⟨4, ![1, 16, 1, 16]⟩
abbrev S26x16x1x16 : Shape := ⟨4, ![26, 16, 1, 16]⟩
abbrev S416x16 : Shape := ⟨2, ![416, 16]⟩
abbrev S13x400 : Shape := ⟨2, ![13, 400]⟩
abbrev S416x400 : Shape := ⟨2, ![416, 400]⟩
abbrev S416x416 : Shape := ⟨2, ![416, 416]⟩
abbrev S1x1 : Shape := ⟨2, ![1, 1]⟩
abbrev S400x1 : Shape := ⟨2, ![400, 1]⟩
abbrev S1x13 : Shape := ⟨2, ![1, 13]⟩
abbrev S1x400 : Shape := ⟨2, ![1, 400]⟩
abbrev S16384x1 : Shape := ⟨2, ![16384, 1]⟩
abbrev S2048x13 : Shape := ⟨2, ![2048, 13]⟩
abbrev S2048x26 : Shape := ⟨2, ![2048, 26]⟩
abbrev S2048x416 : Shape := ⟨2, ![2048, 416]⟩
abbrev S2048x1 : Shape := ⟨2, ![2048, 1]⟩
abbrev S2048 : Shape := ⟨1, ![2048]⟩
abbrev S2048x16 : Shape := ⟨2, ![2048, 16]⟩
abbrev S2048x400 : Shape := ⟨2, ![2048, 400]⟩

abbrev nBuf : Space → Nat
  | .hbm => 59
  | .vmem => 19
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S13x1, .f32⟩
  | .hbm, ⟨3, _⟩ => ⟨S1, .f32⟩
  | .hbm, ⟨4, _⟩ => ⟨S26x100000x1, .f32⟩
  | .hbm, ⟨5, _⟩ => ⟨S26x100000x16, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S401x1, .f32⟩
  | .hbm, ⟨11, _⟩ => ⟨S1, .f32⟩
  | .hbm, ⟨12, _⟩ => ⟨S26x100000x1, .bf16⟩
  | .hbm, ⟨13, _⟩ => ⟨S26x100000x16, .bf16⟩
  | .hbm, ⟨14, _⟩ => ⟨S_, .i32⟩
  | .hbm, ⟨15, _⟩ => ⟨S16384x26, .i32⟩
  | .hbm, ⟨16, _⟩ => ⟨S16384x26, .i1⟩
  | .hbm, ⟨17, _⟩ => ⟨S_, .i32⟩
  | .hbm, ⟨18, _⟩ => ⟨S16384x26, .i32⟩
  | .hbm, ⟨19, _⟩ => ⟨S16384x26, .i32⟩
  | .hbm, ⟨20, _⟩ => ⟨S16384x26, .i32⟩
  | .hbm, ⟨21, _⟩ => ⟨S26x16384, .i32⟩
  | .hbm, ⟨22, _⟩ => ⟨S26x16384x1, .i32⟩
  | .hbm, ⟨23, _⟩ => ⟨S26x16384x1, .bf16⟩
  | .hbm, ⟨24, _⟩ => ⟨S16384x26x1, .bf16⟩
  | .hbm, ⟨25, _⟩ => ⟨S_, .i32⟩
  | .hbm, ⟨26, _⟩ => ⟨S16384x26, .i32⟩
  | .hbm, ⟨27, _⟩ => ⟨S16384x26, .i1⟩
  | .hbm, ⟨28, _⟩ => ⟨S_, .i32⟩
  | .hbm, ⟨29, _⟩ => ⟨S16384x26, .i32⟩
  | .hbm, ⟨30, _⟩ => ⟨S16384x26, .i32⟩
  | .hbm, ⟨31, _⟩ => ⟨S16384x26, .i32⟩
  | .hbm, ⟨32, _⟩ => ⟨S26x16384, .i32⟩
  | .hbm, ⟨33, _⟩ => ⟨S26x16384x1, .i32⟩
  | .hbm, ⟨34, _⟩ => ⟨S26x16384x16, .bf16⟩
  | .hbm, ⟨35, _⟩ => ⟨S16384x26x16, .bf16⟩
  | .hbm, ⟨36, _⟩ => ⟨S16384x26, .bf16⟩
  | .hbm, ⟨37, _⟩ => ⟨S16384x416, .bf16⟩
  | .hbm, ⟨38, _⟩ => ⟨S16x16, .i32⟩
  | .hbm, ⟨39, _⟩ => ⟨S16x16, .i32⟩
  | .hbm, ⟨40, _⟩ => ⟨S_, .i32⟩
  | .hbm, ⟨41, _⟩ => ⟨S16x16, .i32⟩
  | .hbm, ⟨42, _⟩ => ⟨S16x16, .i32⟩
  | .hbm, ⟨43, _⟩ => ⟨S16x16, .i1⟩
  | .hbm, ⟨44, _⟩ => ⟨S16x16, .f32⟩
  | .hbm, ⟨45, _⟩ => ⟨S1x16x1x16, .f32⟩
  | .hbm, ⟨46, _⟩ => ⟨S26x16x1x16, .f32⟩
  | .hbm, ⟨47, _⟩ => ⟨S416x16, .f32⟩
  | .hbm, ⟨48, _⟩ => ⟨S13x400, .f32⟩
  | .hbm, ⟨49, _⟩ => ⟨S416x400, .f32⟩
  | .hbm, ⟨50, _⟩ => ⟨S416x416, .f32⟩
  | .hbm, ⟨51, _⟩ => ⟨S1x1, .f32⟩
  | .hbm, ⟨52, _⟩ => ⟨S400x1, .f32⟩
  | .hbm, ⟨53, _⟩ => ⟨S1x13, .f32⟩
  | .hbm, ⟨54, _⟩ => ⟨S1x1, .f32⟩
  | .hbm, ⟨55, _⟩ => ⟨S1x400, .f32⟩
  | .hbm, ⟨56, _⟩ => ⟨S1x400, .f32⟩
  | .hbm, ⟨57, _⟩ => ⟨S1x1, .f32⟩
  | .hbm, ⟨58, _⟩ => ⟨S16384x1, .f32⟩
  | .local _ .vmem, ⟨0, _⟩ => ⟨S2048x13, .f32⟩
  | .local _ .vmem, ⟨1, _⟩ => ⟨S2048x13, .f32⟩
  | .local _ .vmem, ⟨2, _⟩ => ⟨S2048x26, .bf16⟩
  | .local _ .vmem, ⟨3, _⟩ => ⟨S2048x26, .bf16⟩
  | .local _ .vmem, ⟨4, _⟩ => ⟨S2048x416, .bf16⟩
  | .local _ .vmem, ⟨5, _⟩ => ⟨S2048x416, .bf16⟩
  | .local _ .vmem, ⟨6, _⟩ => ⟨S1x13, .f32⟩
  | .local _ .vmem, ⟨7, _⟩ => ⟨S1x1, .f32⟩
  | .local _ .vmem, ⟨8, _⟩ => ⟨S416x16, .f32⟩
  | .local _ .vmem, ⟨9, _⟩ => ⟨S416x416, .f32⟩
  | .local _ .vmem, ⟨10, _⟩ => ⟨S13x400, .f32⟩
  | .local _ .vmem, ⟨11, _⟩ => ⟨S1x400, .f32⟩
  | .local _ .vmem, ⟨12, _⟩ => ⟨S400x400, .f32⟩
  | .local _ .vmem, ⟨13, _⟩ => ⟨S1x400, .f32⟩
  | .local _ .vmem, ⟨14, _⟩ => ⟨S400x1, .f32⟩
  | .local _ .vmem, ⟨15, _⟩ => ⟨S1x1, .f32⟩
  | .local _ .vmem, ⟨16, _⟩ => ⟨S1x1, .f32⟩
  | .local _ .vmem, ⟨17, _⟩ => ⟨S2048x1, .f32⟩
  | .local _ .vmem, ⟨18, _⟩ => ⟨S2048x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x26 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x416 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S416x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S416x416 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  transposes_S26x16384x1_S16384x26x1_1_0_2 : S26x16384x1.Transposes [1, 0, 2] S16384x26x1
  transposes_S26x16384x16_S16384x26x16_1_0_2 : S26x16384x16.Transposes [1, 0, 2] S16384x26x16
  shapeCasts_S16384x26x1_S16384x26 : S16384x26x1.ShapeCasts S16384x26
  shapeCasts_S16384x26x16_S16384x416 : S16384x26x16.ShapeCasts S16384x416
  bcast_S_S16x16 : S_.BroadcastsInDim S16x16 (![] : Fin 0 → Fin S16x16.rank)
  shapeCasts_S16x16_S1x16x1x16 : S16x16.ShapeCasts S1x16x1x16
  bcast_S1x16x1x16_S26x16x1x16_0_1_2_3 : S1x16x1x16.BroadcastsInDim S26x16x1x16 (![0, 1, 2, 3] : Fin 4 → Fin S26x16x1x16.rank)
  shapeCasts_S26x16x1x16_S416x16 : S26x16x1x16.ShapeCasts S416x16
  slices_S429x400_S13x400_0_0 : S429x400.Slices ![0, 0] S13x400
  slices_S429x400_S416x400_13_0 : S429x400.Slices ![13, 0] S416x400
  concatenates_S416x16_S416x400_S416x416_d1 : Shape.Concatenates [S416x16, S416x400] S416x416 1
  slices_S401x1_S1x1_0_0 : S401x1.Slices ![0, 0] S1x1
  slices_S401x1_S400x1_1_0 : S401x1.Slices ![1, 0] S400x1
  shapeCasts_S13x1_S1x13 : S13x1.ShapeCasts S1x13
  shapeCasts_S1_S1x1 : S1.ShapeCasts S1x1
  shapeCasts_S400_S1x400 : S400.ShapeCasts S1x400
  inb_S2048x13_S2048x13_0_0 : ∀ a, (![0, 0] : Fin 2 → Nat) a + S2048x13.size a ≤ S2048x13.size a
  h_S2048x13 : 0 < S2048x13.numel
  inb_S2048x26_S2048x26_0_0 : ∀ a, (![0, 0] : Fin 2 → Nat) a + S2048x26.size a ≤ S2048x26.size a
  h_S2048x26 : 0 < S2048x26.numel
  shapeCasts_S2048x26_S2048x26 : S2048x26.ShapeCasts S2048x26
  inb_S2048x416_S2048x416_0_0 : ∀ a, (![0, 0] : Fin 2 → Nat) a + S2048x416.size a ≤ S2048x416.size a
  h_S2048x416 : 0 < S2048x416.numel
  shapeCasts_S2048x416_S2048x416 : S2048x416.ShapeCasts S2048x416
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S2048x13 : S1x13.Broadcasts S2048x13
  reduces_S2048x13_S2048 : S2048x13.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  reduces_S2048x26_S2048 : S2048x26.Reduces [1] S2048
  inb_S416x16_S416x16_0_0 : ∀ a, (![0, 0] : Fin 2 → Nat) a + S416x16.size a ≤ S416x16.size a
  h_S416x16 : 0 < S416x16.numel
  shapeCasts_S416x16_S416x16 : S416x16.ShapeCasts S416x16
  inb_S416x416_S416x416_0_0 : ∀ a, (![0, 0] : Fin 2 → Nat) a + S416x416.size a ≤ S416x416.size a
  h_S416x416 : 0 < S416x416.numel
  shapeCasts_S416x416_S416x416 : S416x416.ShapeCasts S416x416
  slices_S2048x416_o0_0_S2048x16 : S2048x416.Slices ![0, 0] S2048x16
  slices_S2048x416_o0_16_S2048x400 : S2048x416.Slices ![0, 16] S2048x400
  reduces_S2048x16_S2048 : S2048x16.Reduces [1] S2048
  inb_S13x400_S13x400_0_0 : ∀ a, (![0, 0] : Fin 2 → Nat) a + S13x400.size a ≤ S13x400.size a
  h_S13x400 : 0 < S13x400.numel
  shapeCasts_S13x400_S13x400 : S13x400.ShapeCasts S13x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S2048x400 : S1x400.Broadcasts S2048x400
  inb_S400x400_S400x400_0_0 : ∀ a, (![0, 0] : Fin 2 → Nat) a + S400x400.size a ≤ S400x400.size a
  h_S400x400 : 0 < S400x400.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S2048x1_S2048x1_0_0 : ∀ a, (![0, 0] : Fin 2 → Nat) a + S2048x1.size a ≤ S2048x1.size a
  h_S2048x1 : 0 < S2048x1.numel
  gather_S26x100000x1_S26x16384x1_S26x16384x1_2_1_0_0_1_2_111_wf : GatherDims.WF S26x100000x1 S26x16384x1 S26x16384x1 [2] [1] [0] [1] [0] 2 ![1, 1, 1]
  gather_S26x100000x16_S26x16384x1_S26x16384x16_2_1_0_0_1_2_1116_wf : GatherDims.WF S26x100000x16 S26x16384x1 S26x16384x16 [2] [1] [0] [1] [0] 2 ![1, 1, 16]
  dot_S2048x416_S416x16_S2048x16_1_0_0_1_n_n_wf : DotDims.WF S2048x416 S416x16 S2048x16 [1] [0] [0] [1] [] []
  dot_S2048x416_S416x416_S2048x416_1_0_0_1_n_n_wf : DotDims.WF S2048x416 S416x416 S2048x416 [1] [0] [0] [1] [] []
  dot_S2048x13_S13x400_S2048x400_1_0_0_1_n_n_wf : DotDims.WF S2048x13 S13x400 S2048x400 [1] [0] [0] [1] [] []
  dot_S2048x400_S400x400_S2048x400_1_0_0_1_n_n_wf : DotDims.WF S2048x400 S400x400 S2048x400 [1] [0] [0] [1] [] []
  dot_S2048x400_S400x1_S2048x1_1_0_0_1_n_n_wf : DotDims.WF S2048x400 S400x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x13.size a ≤ S16384x13.size a
  hwx0_0 : ∀ i : grid0.Coords, EltTy.bits .f32 = 32 ∨ (Rect.block (s := S16384x13) S2048x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x26.size a ≤ S16384x26.size a
  hwx0_1 : ∀ i : grid0.Coords, EltTy.bits .bf16 = 32 ∨ (Rect.block (s := S16384x26) S2048x26.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x416.size a ≤ S16384x416.size a
  hwx0_2 : ∀ i : grid0.Coords, EltTy.bits .bf16 = 32 ∨ (Rect.block (s := S16384x416) S2048x416.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x13.size a ≤ S1x13.size a
  hwx0_3 : ∀ i : grid0.Coords, EltTy.bits .f32 = 32 ∨ (Rect.block (s := S1x13) S1x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S416x16.size a ≤ S416x16.size a
  hwx0_5 : ∀ i : grid0.Coords, EltTy.bits .f32 = 32 ∨ (Rect.block (s := S416x16) S416x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S416x416.size a ≤ S416x416.size a
  hwx0_6 : ∀ i : grid0.Coords, EltTy.bits .f32 = 32 ∨ (Rect.block (s := S416x416) S416x416.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S13x400.size a ≤ S13x400.size a
  hwx0_7 : ∀ i : grid0.Coords, EltTy.bits .f32 = 32 ∨ (Rect.block (s := S13x400) S13x400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x400.size a ≤ S1x400.size a
  hwx0_8 : ∀ i : grid0.Coords, EltTy.bits .f32 = 32 ∨ (Rect.block (s := S1x400) S1x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x400.size a ≤ S400x400.size a
  hwx0_9 : ∀ i : grid0.Coords, EltTy.bits .f32 = 32 ∨ (Rect.block (s := S400x400) S400x400.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x400.size a ≤ S1x400.size a
  hwx0_10 : ∀ i : grid0.Coords, EltTy.bits .f32 = 32 ∨ (Rect.block (s := S1x400) S1x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400x1.size a ≤ S400x1.size a
  hwx0_11 : ∀ i : grid0.Coords, EltTy.bits .f32 = 32 ∨ (Rect.block (s := S400x1) S400x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x1.size a ≤ S16384x1.size a
  hwx0_14 : ∀ i : grid0.Coords, EltTy.bits .f32 = 32 ∨ (Rect.block (s := S16384x1) S2048x1.size (cc0_transform_14 i) (hinb0_14 i)).WholeWords (EltTy.packing .f32)

variable [Facts₀]

def gather_S26x100000x1_S26x16384x1_S26x16384x1_2_1_0_0_1_2_111 : GatherDims S26x100000x1 S26x16384x1 S26x16384x1 where
  offsetDims := [2]
  collapsedSliceDims := [1]
  operandBatchingDims := [0]
  startIndicesBatchingDims := [0]
  startIndexMap := [1]
  indexVectorDim := 2
  sliceSizes := ![1, 1, 1]
  wf := gather_S26x100000x1_S26x16384x1_S26x16384x1_2_1_0_0_1_2_111_wf
def gather_S26x100000x16_S26x16384x1_S26x16384x16_2_1_0_0_1_2_1116 : GatherDims S26x100000x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100000x16_S26x16384x1_S26x16384x16_2_1_0_0_1_2_1116_wf
def dot_S2048x416_S416x16_S2048x16_1_0_0_1_n_n : DotDims S2048x416 S416x16 S2048x16 where
  lhsContracting := [1]
  rhsContracting := [0]
  lhsNonContracting := [0]
  rhsNonContracting := [1]
  lhsBatch := []
  rhsBatch := []
  wf := dot_S2048x416_S416x16_S2048x16_1_0_0_1_n_n_wf
def dot_S2048x416_S416x416_S2048x416_1_0_0_1_n_n : DotDims S2048x416 S416x416 S2048x416 where
  lhsContracting := [1]
  rhsContracting := [0]
  lhsNonContracting := [0]
  rhsNonContracting := [1]
  lhsBatch := []
  rhsBatch := []
  wf := dot_S2048x416_S416x416_S2048x416_1_0_0_1_n_n_wf
def dot_S2048x13_S13x400_S2048x400_1_0_0_1_n_n : DotDims S2048x13 S13x400 S2048x400 where
  lhsContracting := [1]
  rhsContracting := [0]
  lhsNonContracting := [0]
  rhsNonContracting := [1]
  lhsBatch := []
  rhsBatch := []
  wf := dot_S2048x13_S13x400_S2048x400_1_0_0_1_n_n_wf
def dot_S2048x400_S400x400_S2048x400_1_0_0_1_n_n : DotDims S2048x400 S400x400 S2048x400 where
  lhsContracting := [1]
  rhsContracting := [0]
  lhsNonContracting := [0]
  rhsNonContracting := [1]
  lhsBatch := []
  rhsBatch := []
  wf := dot_S2048x400_S400x400_S2048x400_1_0_0_1_n_n_wf
def dot_S2048x400_S400x1_S2048x1_1_0_0_1_n_n : DotDims S2048x400 S400x1 S2048x1 where
  lhsContracting := [1]
  rhsContracting := [0]
  lhsNonContracting := [0]
  rhsNonContracting := [1]
  lhsBatch := []
  rhsBatch := []
  wf := dot_S2048x400_S400x1_S2048x1_1_0_0_1_n_n_wf

abbrev win0_0 : Pipeline.Window sig grid0 :=
  Pipeline.Window.ofSpec (Memref.whole main_arg0) S2048x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x416.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S416x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S416x416.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S13x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S400x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S400x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v34) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S2048x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩
abbrev S26x16384 : Shape := ⟨2, ![26, 16384]⟩
abbrev S26x16384x1 : Shape := ⟨3, ![26, 16384, 1]⟩
abbrev S16384x26x1 : Shape := ⟨3, ![16384, 26, 1]⟩
abbrev S16384x1 : Shape := ⟨2, ![16384, 1]⟩
abbrev S1x1 : Shape := ⟨2, ![1, 1]⟩
abbrev S26x16384x16 : Shape := ⟨3, ![26, 16384, 16]⟩
abbrev S16384x26x16 : Shape := ⟨3, ![16384, 26, 16]⟩
abbrev S16384x16 : Shape := ⟨2, ![16384, 16]⟩
abbrev S16384 : Shape := ⟨1, ![16384]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S16384x401 : Shape := ⟨2, ![16384, 401]⟩

abbrev nBuf : Space → Nat
  | .hbm => 76
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S13x1, .f32⟩
  | .hbm, ⟨3, _⟩ => ⟨S1, .f32⟩
  | .hbm, ⟨4, _⟩ => ⟨S26x100000x1, .f32⟩
  | .hbm, ⟨5, _⟩ => ⟨S26x100000x16, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S401x1, .f32⟩
  | .hbm, ⟨11, _⟩ => ⟨S1, .f32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S26x16384, .i32⟩
  | .hbm, ⟨20, _⟩ => ⟨S26x16384x1, .i32⟩
  | .hbm, ⟨21, _⟩ => ⟨S26x16384x1, .f32⟩
  | .hbm, ⟨22, _⟩ => ⟨S16384x26x1, .f32⟩
  | .hbm, ⟨23, _⟩ => ⟨S16384x1, .f32⟩
  | .hbm, ⟨24, _⟩ => ⟨S1x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .i32⟩
  | .hbm, ⟨31, _⟩ => ⟨S16384x26, .i32⟩
  | .hbm, ⟨32, _⟩ => ⟨S16384x26, .i1⟩
  | .hbm, ⟨33, _⟩ => ⟨S_, .i32⟩
  | .hbm, ⟨34, _⟩ => ⟨S16384x26, .i32⟩
  | .hbm, ⟨35, _⟩ => ⟨S16384x26, .i32⟩
  | .hbm, ⟨36, _⟩ => ⟨S16384x26, .i32⟩
  | .hbm, ⟨37, _⟩ => ⟨S26x16384, .i32⟩
  | .hbm, ⟨38, _⟩ => ⟨S26x16384x1, .i32⟩
  | .hbm, ⟨39, _⟩ => ⟨S26x16384x16, .f32⟩
  | .hbm, ⟨40, _⟩ => ⟨S16384x26x16, .f32⟩
  | .hbm, ⟨41, _⟩ => ⟨S_, .f32⟩
  | .hbm, ⟨42, _⟩ => ⟨S16384x16, .f32⟩
  | .hbm, ⟨43, _⟩ => ⟨S16384x26x16, .f32⟩
  | .hbm, ⟨44, _⟩ => ⟨S_, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x416, .f32⟩
  | .hbm, ⟨56, _⟩ => ⟨S16384x429, .f32⟩
  | .hbm, ⟨57, _⟩ => ⟨S16384x400, .f32⟩
  | .hbm, ⟨58, _⟩ => ⟨S1x400, .f32⟩
  | .hbm, ⟨59, _⟩ => ⟨S16384x400, .f32⟩
  | .hbm, ⟨60, _⟩ => ⟨S16384x400, .f32⟩
  | .hbm, ⟨61, _⟩ => ⟨S_, .f32⟩
  | .hbm, ⟨62, _⟩ => ⟨S16384x400, .f32⟩
  | .hbm, ⟨63, _⟩ => ⟨S16384x400, .f32⟩
  | .hbm, ⟨64, _⟩ => ⟨S16384x400, .f32⟩
  | .hbm, ⟨65, _⟩ => ⟨S1x400, .f32⟩
  | .hbm, ⟨66, _⟩ => ⟨S16384x400, .f32⟩
  | .hbm, ⟨67, _⟩ => ⟨S16384x400, .f32⟩
  | .hbm, ⟨68, _⟩ => ⟨S_, .f32⟩
  | .hbm, ⟨69, _⟩ => ⟨S16384x400, .f32⟩
  | .hbm, ⟨70, _⟩ => ⟨S16384x400, .f32⟩
  | .hbm, ⟨71, _⟩ => ⟨S16384x401, .f32⟩
  | .hbm, ⟨72, _⟩ => ⟨S16384x1, .f32⟩
  | .hbm, ⟨73, _⟩ => ⟨S1x1, .f32⟩
  | .hbm, ⟨74, _⟩ => ⟨S16384x1, .f32⟩
  | .hbm, ⟨75, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  transposes_S26x16384x1_S16384x26x1_1_0_2 : S26x16384x1.Transposes [1, 0, 2] S16384x26x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x26x1_S16384x1_d1 : S16384x26x1.ReducesTo [1] S16384x1
  h_S_ : 0 < S_.numel
  transposes_S26x16384x16_S16384x26x16_1_0_2 : S26x16384x16.Transposes [1, 0, 2] S16384x26x16
  reducesTo_S16384x26x16_S16384x16_d1 : S16384x26x16.ReducesTo [1] S16384x16
  reducesTo_S16384x16_S16384_d1 : S16384x16.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x26x16_S16384x416 : S16384x26x16.ShapeCasts S16384x416
  concatenates_S16384x13_S16384x416_S16384x429_d1 : Shape.Concatenates [S16384x13, S16384x416] S16384x429 1
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  concatenates_S16384x1_S16384x400_S16384x401_d1 : Shape.Concatenates [S16384x1, S16384x400] S16384x401 1
  gather_S26x100000x1_S26x16384x1_S26x16384x1_2_1_0_0_1_2_111_wf : GatherDims.WF S26x100000x1 S26x16384x1 S26x16384x1 [2] [1] [0] [1] [0] 2 ![1, 1, 1]
  dot_S16384x13_S13x1_S16384x1_1_0_0_1_n_n_wf : DotDims.WF S16384x13 S13x1 S16384x1 [1] [0] [0] [1] [] []
  gather_S26x100000x16_S26x16384x1_S26x16384x16_2_1_0_0_1_2_1116_wf : GatherDims.WF S26x100000x16 S26x16384x1 S26x16384x16 [2] [1] [0] [1] [0] 2 ![1, 1, 16]
  dot_S16384x429_S429x400_S16384x400_1_0_0_1_n_n_wf : DotDims.WF S16384x429 S429x400 S16384x400 [1] [0] [0] [1] [] []
  dot_S16384x400_S400x400_S16384x400_1_0_0_1_n_n_wf : DotDims.WF S16384x400 S400x400 S16384x400 [1] [0] [0] [1] [] []
  dot_S16384x401_S401x1_S16384x1_1_0_0_1_n_n_wf : DotDims.WF S16384x401 S401x1 S16384x1 [1] [0] [0] [1] [] []

variable [Facts₀]

def gather_S26x100000x1_S26x16384x1_S26x16384x1_2_1_0_0_1_2_111 : GatherDims S26x100000x1 S26x16384x1 S26x16384x1 where
  offsetDims := [2]
  collapsedSliceDims := [1]
  operandBatchingDims := [0]
  startIndicesBatchingDims := [0]
  startIndexMap := [1]
  indexVectorDim := 2
  sliceSizes := ![1, 1, 1]
  wf := gather_S26x100000x1_S26x16384x1_S26x16384x1_2_1_0_0_1_2_111_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x16_S26x16384x1_S26x16384x16_2_1_0_0_1_2_1116 : GatherDims S26x100000x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100000x16_S26x16384x1_S26x16384x16_2_1_0_0_1_2_1116_wf
def dot_S16384x429_S429x400_S16384x400_1_0_0_1_n_n : DotDims S16384x429 S429x400 S16384x400 where
  lhsContracting := [1]
  rhsContracting := [0]
  lhsNonContracting := [0]
  rhsNonContracting := [1]
  lhsBatch := []
  rhsBatch := []
  wf := dot_S16384x429_S429x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x401_S401x1_S16384x1_1_0_0_1_n_n : DotDims S16384x401 S401x1 S16384x1 where
  lhsContracting := [1]
  rhsContracting := [0]
  lhsNonContracting := [0]
  rhsNonContracting := [1]
  lhsBatch := []
  rhsBatch := []
  wf := dot_S16384x401_S401x1_S16384x1_1_0_0_1_n_n_wf

class Facts : Prop extends Facts₀ where

variable [Facts]
-- ==== Proof.HostArrays.lean ====
/-
  What the kernel's host operations leave in the arrays the region reads.

  Before the region the host gathers, per batch row and field, the first-order weight and the 16-coordinate embedding
  the row's category selects (after wrapping a negative category by the table's height), lays the rows batch-first,
  and re-shapes them to 16384×26 and 16384×416; builds the 416×16 matrix of zeros and ones from an identity of
  order 16 repeated down the 26 fields; cuts the first weight matrix into its band of 13 rows and its band of 416
  rows and joins the zero-one matrix beside the second band; cuts the output weights into the row of the
  factorization-machine part and the 400 rows of the hidden part; and re-shapes the bias vectors to rows. A change of
  float format is the identity on extended reals, so the gathered arrays are the gathers of the tables themselves.
-/
import proofs.«121431_j21732534518459_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.HostArrays

open Cert.KernelIdeal Cert.KernelIdeal.Gen Idealize.ShloMosaic Idealize.ShloMosaic.TcCoe Idealize.SL.Sem
  Idealize.ShloMosaic.StableHlo Idealize.ShloMosaic.ValueIdx

/-- The categories, a negative one wrapped by the table's height 100000, laid field-first with a unit last axis:
    the start indices of both gathers. -/
def starts (x1 : IVec S16384x26 32) : IVec S26x16384x1 32 :=
  broadcastInDim S26x16384x1 ![0, 1] bcast_S26x16384_S26x16384x1_0_1
    (transpose S26x16384 [1, 0]
      (select (cmpi .slt x1 (broadcastInDim S16384x26 ![] bcast_S_S16384x26 (constantI S_ 32 0#32)))
        (addi x1 (broadcastInDim S16384x26 ![] bcast_S_S16384x26 (constantI S_ 32 100000#32))) x1)
      transposes_S16384x26_S26x16384_1_0)

/-- The gathered first-order weights, batch-first: entry (b, f, 0) is table f's weight at row b's category. -/
def firstRows (x1 : IVec S16384x26 32) (x4 : S26x100000x1.Idx → EReal) : S16384x26x1.Idx → EReal :=
  transpose S16384x26x1 [1, 0, 2]
    (Host.gather gather_S26x100000x1_S26x16384x1_S26x16384x1_2_1_0_0_1_2_111 x4 (starts x1))
    transposes_S26x16384x1_S16384x26x1_1_0_2

/-- The gathered embeddings, batch-first: entry (b, f, e) is coordinate e of table f's embedding at row b's category. -/
def embRows (x1 : IVec S16384x26 32) (x5 : S26x100000x16.Idx → EReal) : S16384x26x16.Idx → EReal :=
  transpose S16384x26x16 [1, 0, 2]
    (Host.gather gather_S26x100000x16_S26x16384x1_S26x16384x16_2_1_0_0_1_2_1116 x5 (starts x1))
    transposes_S26x16384x16_S16384x26x16_1_0_2

/-- The zero-one matrix: an identity of order 16 repeated down the 26 fields. -/
def picks : S416x16.Idx → EReal :=
  shapeCast S416x16
    (broadcastInDim S26x16x1x16 ![0, 1, 2, 3] bcast_S1x16x1x16_S26x16x1x16_0_1_2_3
      (shapeCast S1x16x1x16
        (uitofp (F := Ideal) .f32 (cmpi .eq (addi (iotaInDim S16x16 32 0)
          (broadcastInDim S16x16 ![] bcast_S_S16x16 (constantI S_ 32 0#32))) (iotaInDim S16x16 32 1)))
        shapeCasts_S16x16_S1x16x1x16))
    shapeCasts_S26x16x1x16_S416x16

/-- An entry of the identity of order 16, as the host computes it: the row number plus zero compared with the column
    number, the bit read as a number. -/
theorem eye_entry (a e : Fin 16) :
    FloatOps.uitofp (F := Ideal) .f32 (IntOp.cmpi .eq (IntOp.addi (BitVec.ofNat 32 a.val) 0#32) (BitVec.ofNat 32 e.val))
      = if a.val = e.val then (1 : EReal) else 0 := by
  have ha := a.isLt
  have he := e.isLt
  by_cases h : a.val = e.val
  · rw [if_pos h, h]
    have hc : IntOp.cmpi .eq (IntOp.addi (BitVec.ofNat 32 e.val) 0#32) (BitVec.ofNat 32 e.val) = 1#1 := by
      simp [IntOp.cmpi, IntOp.addi]
    rw [hc]
    show (((1#1 : BitVec 1).toNat : ℝ) : EReal) = 1
    simp
  · rw [if_neg h]
    have hne : BitVec.ofNat 32 a.val ≠ BitVec.ofNat 32 e.val := by
      intro hh
      have := congrArg BitVec.toNat hh
      simp at this
      omega
    have hb : (BitVec.ofNat 32 a.val == BitVec.ofNat 32 e.val) = false := beq_eq_false_iff_ne.mpr hne
    have hc : IntOp.cmpi .eq (IntOp.addi (BitVec.ofNat 32 a.val) 0#32) (BitVec.ofNat 32 e.val) = 0#1 := by
      simp [IntOp.cmpi, IntOp.addi, hb]
    rw [hc]
    show (((0#1 : BitVec 1).toNat : ℝ) : EReal) = 0
    simp

/-- The zero-one matrix is 1 exactly where the row number is congruent to the column number modulo 16. -/
theorem picks_apply (c : Fin 416) (e : Fin 16) : picks (ix2 c e) = if c.val % 16 = e.val then (1 : EReal) else 0 := by
  have hc := c.isLt
  have he := e.isLt
  let f : Fin 26 := ⟨c.val / 16, by omega⟩
  let a : Fin 16 := ⟨c.val % 16, by omega⟩
  unfold picks
  refine (shapeCast_apply _ shapeCasts_S26x16x1x16_S416x16 (ix2 c e) (ix4 f a (0 : Fin 1) e) ?_).trans ?_
  · rw [Shape.rowMajor_val_four, Shape.rowMajor_val_two]
    show ((c.val / 16 * 16 + c.val % 16) * 1 + 0) * 16 + e.val = c.val * 16 + e.val
    omega
  refine (broadcastInDim_apply _ bcast_S1x16x1x16_S26x16x1x16_0_1_2_3 _ (ix4 f a (0 : Fin 1) e)
    (ix4 (0 : Fin 1) a (0 : Fin 1) e) fun ax => ?_).trans ?_
  · match ax with
    | ⟨0, _⟩ => rfl
    | ⟨1, _⟩ => show a.val = if (16 : Nat) = 1 then 0 else a.val; rw [if_neg (by decide)]
    | ⟨2, _⟩ => rfl
    | ⟨3, _⟩ => show e.val = if (16 : Nat) = 1 then 0 else e.val; rw [if_neg (by decide)]
  refine (shapeCast_apply _ shapeCasts_S16x16_S1x16x1x16 (ix4 (0 : Fin 1) a (0 : Fin 1) e) (ix2 a e) ?_).trans ?_
  · rw [Shape.rowMajor_val_four, Shape.rowMajor_val_two]
    show a.val * 16 + e.val = ((0 * 16 + a.val) * 1 + 0) * 16 + e.val
    omega
  exact eye_entry a e

variable (m : (ℓ : Loc nD τ sig) → Buf (Elt Ideal) ℓ)

theorem first_eq (c : Dev nD) : (V m c main_v20 : S16384x26.Idx → EReal)
    = shapeCast S16384x26 (firstRows (m ((c : Thread nD τ).loc main_arg1)) (m ((c : Thread nD τ).loc main_arg4)))
        shapeCasts_S16384x26x1_S16384x26 := by
  dsimp only [V, hostOps0]
  after_results_simp <;> rfl

theorem emb_eq (c : Dev nD) : (V m c main_v21 : S16384x416.Idx → EReal)
    = shapeCast S16384x416 (embRows (m ((c : Thread nD τ).loc main_arg1)) (m ((c : Thread nD τ).loc main_arg5)))
        shapeCasts_S16384x26x16_S16384x416 := by
  dsimp only [V, hostOps0]
  after_results_simp <;> rfl

theorem wrow_eq (c : Dev nD) : (V m c main_v36 : S1x13.Idx → EReal)
    = shapeCast S1x13 (m ((c : Thread nD τ).loc main_arg2)) shapeCasts_S13x1_S1x13 := by
  dsimp only [V, hostOps0]
  after_results_simp <;> rfl

theorem bcont_eq (c : Dev nD) : (V m c main_v37 : S1x1.Idx → EReal)
    = shapeCast S1x1 (m ((c : Thread nD τ).loc main_arg3)) shapeCasts_S1_S1x1 := by
  dsimp only [V, hostOps0]
  after_results_simp <;> rfl

theorem picks_eq (c : Dev nD) : (V m c main_v30 : S416x16.Idx → EReal) = picks := by
  dsimp only [V, hostOps0]
  after_results_simp <;> rfl

theorem joined_eq (c : Dev nD) : (V m c main_v33 : S416x416.Idx → EReal)
    = concatenate S416x416 1 [⟨S416x16, picks⟩, ⟨S416x400,
        extractStridedSlice S416x400 ![13, 0] (m ((c : Thread nD τ).loc main_arg6)) slices_S429x400_S416x400_13_0⟩]
        concatenates_S416x16_S416x400_S416x416_d1 := by
  dsimp only [V, hostOps0]
  after_results_simp <;> rfl

theorem w1c_eq (c : Dev nD) : (V m c main_v31 : S13x400.Idx → EReal)
    = extractStridedSlice S13x400 ![0, 0] (m ((c : Thread nD τ).loc main_arg6)) slices_S429x400_S13x400_0_0 := by
  dsimp only [V, hostOps0]
  after_results_simp <;> rfl

theorem b1_eq (c : Dev nD) : (V m c main_v38 : S1x400.Idx → EReal)
    = shapeCast S1x400 (m ((c : Thread nD τ).loc main_arg7)) shapeCasts_S400_S1x400 := by
  dsimp only [V, hostOps0]
  after_results_simp <;> rfl

theorem b2_eq (c : Dev nD) : (V m c main_v39 : S1x400.Idx → EReal)
    = shapeCast S1x400 (m ((c : Thread nD τ).loc main_arg9)) shapeCasts_S400_S1x400 := by
  dsimp only [V, hostOps0]
  after_results_simp <;> rfl

theorem wh_eq (c : Dev nD) : (V m c main_v35 : S400x1.Idx → EReal)
    = extractStridedSlice S400x1 ![1, 0] (m ((c : Thread nD τ).loc main_arg10)) slices_S401x1_S400x1_1_0 := by
  dsimp only [V, hostOps0]
  after_results_simp <;> rfl

theorem wfm_eq (c : Dev nD) : (V m c main_v34 : S1x1.Idx → EReal)
    = extractStridedSlice S1x1 ![0, 0] (m ((c : Thread nD τ).loc main_arg10)) slices_S401x1_S1x1_0_0 := by
  dsimp only [V, hostOps0]
  after_results_simp <;> rfl

theorem bout_eq (c : Dev nD) : (V m c main_v40 : S1x1.Idx → EReal)
    = shapeCast S1x1 (m ((c : Thread nD τ).loc main_arg11)) shapeCasts_S1_S1x1 := by
  dsimp only [V, hostOps0]
  after_results_simp <;> rfl

end Cert.KernelIdeal.HostArrays

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«121431_j21732534518459_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«121431_j21732534518459_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«121431_j21732534518459_2_alg».proof.Proof.LibBlockReads
import proofs.«121431_j21732534518459_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«121431_j21732534518459_2_alg».proof.Proof.LibBlockReads
import proofs.«121431_j21732534518459_2_alg».proof.Proof.LibMatProd
import proofs.«121431_j21732534518459_2_alg».proof.Proof.LibRowVector
import proofs.«121431_j21732534518459_2_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.FieldSums.lean ====
/-
  Sums over the fields of a flattened embedding row.

  A row of 26 fields of 16 coordinates each is laid end to end as 416 columns: coordinate e of field f sits at
  column 16·f + e. A sum over the 416 columns is the sum over the fields of the sum over the coordinates. The
  416×16 matrix S with S(c, e) = 1 when c ≡ e (mod 16) and 0 otherwise picks, for each coordinate e, the columns of
  that coordinate: X · S at (p, e) is the sum over the fields f of X(p, 16·f + e). On the extended reals this uses
  only x · 1 = x, x · 0 = 0 and that sums may be regrouped, so no finiteness is asked.
-/
import Idealize.ShloMosaic.PureOps.Ideal.Laws
import Idealize.ShloMosaic.Lib.ValueIdx
import proofs.«121431_j21732534518459_2_alg».proof.Proof.LibMatProd

open scoped BigOperators

noncomputable section

namespace Cert.DeepFM

open Idealize.ShloMosaic Idealize.ShloMosaic.ValueIdx Cert.Lib.MatProd

/-- The column of coordinate e of field f. -/
def flat (f : Fin 26) (e : Fin 16) : Fin 416 := ⟨f.val * 16 + e.val, by have := f.isLt; have := e.isLt; omega⟩

theorem flat_val (f : Fin 26) (e : Fin 16) : (flat f e).val = f.val * 16 + e.val := rfl

/-- A sum over the 416 columns is the sum over the fields of the sum over the coordinates. -/
theorem sum_flat {M : Type} [AddCommMonoid M] (g : Fin 416 → M) :
    ∑ c : Fin 416, g c = ∑ f : Fin 26, ∑ e : Fin 16, g (flat f e) := by
  rw [← Fintype.sum_prod_type' (f := fun f e => g (flat f e))]
  refine (Fintype.sum_equiv (finProdFinEquiv (m := 26) (n := 16)) (fun x => g (flat x.1 x.2)) (fun c => g c) fun x => ?_).symm
  refine congrArg g (Fin.ext ?_)
  show x.1.val * 16 + x.2.val = x.2.val + 16 * x.1.val
  omega

variable {r : Nat}

/-- X · S at (p, e), for the 0/1 matrix S that is 1 exactly where the row index is ≡ e (mod 16), is the sum over
    the fields of X(p, 16·f + e). -/
theorem matProd_selector (X : (⟨2, ![r, 416]⟩ : Shape).Idx → EReal) (S : (⟨2, ![416, 16]⟩ : Shape).Idx → EReal)
    (hS : ∀ (c : Fin 416) (e : Fin 16), S (ix2 c e) = if c.val % 16 = e.val then 1 else 0) (p : Fin r) (e : Fin 16) :
    matProd X S (ix2 p e) = ∑ f : Fin 26, X (ix2 p (flat f e)) := by
  rw [matProd_apply, sum_flat]
  refine Finset.sum_congr rfl fun f _ => ?_
  rw [Finset.sum_eq_single e]
  · rw [hS, if_pos (by rw [flat_val]; have := e.isLt; omega), mul_one]
  · intro e' _ hne
    rw [hS, if_neg (fun h => hne (Fin.ext (by rw [flat_val] at h; have := e'.isLt; have := e.isLt; omega))), mul_zero]
  · intro h; exact absurd (Finset.mem_univ e) h

end Cert.DeepFM

end
-- ==== Proof.DeepFM.lean ====
/-
  The DeepFM forward pass of one batch row, on the extended reals, in two arrangements.

  Inputs of a row: 13 continuous features C(p, ·), the 26 gathered first-order weights Fs(p, ·), and the 26 gathered
  embeddings of 16 coordinates each laid end to end, Em(p, 16·f + e). The factorization-machine part is
      (C(p,·)·w + bc + Σ_f Fs(p,f)) + ½ · Σ_e ((Σ_f Em(p,16f+e))² − Σ_f Em(p,16f+e)²),
  the deep part is two layers max(X·W + b, 0), the first over [C | Em] with the matrix cut into its band of 13 rows
  and its band of 416 rows, and the output is fm · wfm + h₂ · wh + bo.

  `G` writes the sums over fields directly. `K` takes them instead as products with a 0/1 matrix S (S(c, e) = 1 when
  c ≡ e mod 16) and reads both Σ_f Em(p,16f+e) and Em · W1e off ONE product Em · [S | W1e], columns 0–15 and 16–415.
  The two are equal (`K_eq_G`): a product's column depends on the matching column of the right factor, and the
  product with S is the sum over fields. Every entry depends on one row of C, Fs and Em (`G_rows`).
-/
import Idealize.ShloMosaic.PureOps.Ideal.Laws
import Idealize.ShloMosaic.Lib.ValueIdx
import proofs.«121431_j21732534518459_2_alg».proof.Proof.LibMatProd
import proofs.«121431_j21732534518459_2_alg».proof.Proof.LibBiasRelu
import proofs.«121431_j21732534518459_2_alg».proof.Proof.LibSplitLayers
import proofs.«121431_j21732534518459_2_alg».proof.Proof.FieldSums

open scoped BigOperators

noncomputable section

namespace Cert.DeepFM

open Idealize.ShloMosaic Idealize.ShloMosaic.ValueIdx Cert.Lib.MatProd Cert.Lib.BiasRelu Cert.Lib.SplitLayers

/-- An a×b array of extended reals. -/
abbrev Mat (a b : Nat) : Type := (⟨2, ![a, b]⟩ : Shape).Idx → EReal

/-- The value of the single-precision word of one half, the same word in both programs. -/
abbrev half : EReal := Ideal.ofBits .f32 0x3F000000#32

/-- Column e of the joined matrix [S | W1e]: a column of S. -/
def lo (e : Fin 16) : Fin 416 := ⟨e.val, by have := e.isLt; omega⟩
/-- Column 16 + q of the joined matrix [S | W1e]: column q of W1e. -/
def hi (q : Fin 400) : Fin 416 := ⟨16 + q.val, by have := q.isLt; omega⟩

variable {r r' : Nat}

/-! ## The arrangement with sums over fields -/

/-- The factorization-machine part of row p. -/
def fm (C : Mat r 13) (w : Mat 1 13) (bc : Mat 1 1) (Fs : Mat r 26) (Em : Mat r 416) (p : Fin r) : EReal :=
  ((∑ k : Fin 13, C (ix2 p k) * w (ix2 0 k)) + bc (ix2 0 0) + ∑ f : Fin 26, Fs (ix2 p f))
    + half * ∑ e : Fin 16, ((∑ f : Fin 26, Em (ix2 p (flat f e))) * (∑ f : Fin 26, Em (ix2 p (flat f e)))
        - ∑ f : Fin 26, Em (ix2 p (flat f e)) * Em (ix2 p (flat f e)))

/-- The output column: fm · wfm + h₂ · wh + bo, with h₁ = max([C | Em] · [W1c ; W1e] + b1, 0), h₂ = max(h₁ · W2 + b2, 0). -/
def G (C : Mat r 13) (Fs : Mat r 26) (Em : Mat r 416) (w : Mat 1 13) (bc : Mat 1 1) (W1c : Mat 13 400)
    (W1e : Mat 416 400) (b1 : Mat 1 400) (W2 : Mat 400 400) (b2 : Mat 1 400) (wh : Mat 400 1) (wfm bo : Mat 1 1) :
    Mat r 1 := fun i =>
  (fm C w bc Fs Em (i 0) * wfm (ix2 0 0) + matProd (layer (layer2 C Em W1c W1e b1) W2 b2) wh i) + bo (ix2 0 0)

/-- Row p' of the output over (C', Fs', Em') is row p of the output over (C, Fs, Em) when those rows agree. -/
theorem G_rows (C : Mat r 13) (C' : Mat r' 13) (Fs : Mat r 26) (Fs' : Mat r' 26) (Em : Mat r 416) (Em' : Mat r' 416)
    (w : Mat 1 13) (bc : Mat 1 1) (W1c : Mat 13 400) (W1e : Mat 416 400) (b1 : Mat 1 400) (W2 : Mat 400 400)
    (b2 : Mat 1 400) (wh : Mat 400 1) (wfm bo : Mat 1 1) (p' : Fin r') (p : Fin r)
    (hC : ∀ k : Fin 13, C' (ix2 p' k) = C (ix2 p k)) (hF : ∀ f : Fin 26, Fs' (ix2 p' f) = Fs (ix2 p f))
    (hE : ∀ c : Fin 416, Em' (ix2 p' c) = Em (ix2 p c)) :
    G C' Fs' Em' w bc W1c W1e b1 W2 b2 wh wfm bo (ix2 p' 0) = G C Fs Em w bc W1c W1e b1 W2 b2 wh wfm bo (ix2 p 0) := by
  have h1 : fm C' w bc Fs' Em' p' = fm C w bc Fs Em p := by
    unfold fm
    simp only [hC, hF, hE]
  have h2 : matProd (layer (layer2 C' Em' W1c W1e b1) W2 b2) wh (ix2 p' 0)
      = matProd (layer (layer2 C Em W1c W1e b1) W2 b2) wh (ix2 p 0) :=
    matProd_rows _ _ wh p' p 0 fun c => layer_rows _ _ W2 b2 p' p c fun c' =>
      layer2_rows C C' Em Em' W1c W1e b1 p' p c' hC hE
  show (fm C' w bc Fs' Em' p' * _ + _) + _ = (fm C w bc Fs Em p * _ + _) + _
  rw [h1, h2]

/-! ## The arrangement with a 0/1 matrix and one joined product -/

/-- The factorization-machine part of row p, its sums over fields taken as products with S and with [S | W1e]. -/
def fmK (C : Mat r 13) (w : Mat 1 13) (bc : Mat 1 1) (Fs : Mat r 26) (Em : Mat r 416) (S : Mat 416 16) (SW : Mat 416 416)
    (p : Fin r) : EReal :=
  ((∑ k : Fin 13, C (ix2 p k) * w (ix2 0 k)) + bc (ix2 0 0) + ∑ f : Fin 26, Fs (ix2 p f))
    + half * ∑ e : Fin 16, (matProd Em SW (ix2 p (lo e)) * matProd Em SW (ix2 p (lo e))
        - matProd (fun i => Em i * Em i) S (ix2 p e))

/-- The first layer with the embedding band's product read off columns 16–415 of Em · [S | W1e]. -/
def hiddenK (C : Mat r 13) (Em : Mat r 416) (SW : Mat 416 416) (W1c : Mat 13 400) (b1 : Mat 1 400) : Mat r 400 :=
  biasRelu (fun i => matProd C W1c i
    + matProd Em SW (ix2 (⟨(i 0).val, (i 0).isLt⟩ : Fin r) (hi (⟨(i 1).val, idx2_lt1 i⟩ : Fin 400)))) b1

/-- The output column in this arrangement. -/
def K (C : Mat r 13) (Fs : Mat r 26) (Em : Mat r 416) (w : Mat 1 13) (bc : Mat 1 1) (S : Mat 416 16) (SW : Mat 416 416)
    (W1c : Mat 13 400) (b1 : Mat 1 400) (W2 : Mat 400 400) (b2 : Mat 1 400) (wh : Mat 400 1) (wfm bo : Mat 1 1) :
    Mat r 1 := fun i =>
  (fmK C w bc Fs Em S SW (i 0) * wfm (ix2 0 0) + matProd (layer (hiddenK C Em SW W1c b1) W2 b2) wh i) + bo (ix2 0 0)

/-- The two arrangements are one function, when S is the 0/1 matrix of the coordinates and SW = [S | W1e]. -/
theorem K_eq_G (C : Mat r 13) (Fs : Mat r 26) (Em : Mat r 416) (w : Mat 1 13) (bc : Mat 1 1) (S : Mat 416 16)
    (SW : Mat 416 416) (W1c : Mat 13 400) (W1e : Mat 416 400) (b1 : Mat 1 400) (W2 : Mat 400 400) (b2 : Mat 1 400)
    (wh : Mat 400 1) (wfm bo : Mat 1 1)
    (hS : ∀ (c : Fin 416) (e : Fin 16), S (ix2 c e) = if c.val % 16 = e.val then 1 else 0)
    (hlo : ∀ (c : Fin 416) (e : Fin 16), SW (ix2 c (lo e)) = S (ix2 c e))
    (hhi : ∀ (c : Fin 416) (q : Fin 400), SW (ix2 c (hi q)) = W1e (ix2 c q)) :
    K C Fs Em w bc S SW W1c b1 W2 b2 wh wfm bo = G C Fs Em w bc W1c W1e b1 W2 b2 wh wfm bo := by
  have hsum : ∀ (p : Fin r) (e : Fin 16), matProd Em SW (ix2 p (lo e)) = ∑ f : Fin 26, Em (ix2 p (flat f e)) := fun p e =>
    (matProd_block Em Em S SW p (lo e) p e (fun _ => rfl) (fun c => hlo c e)).trans (matProd_selector Em S hS p e)
  have hsq : ∀ (p : Fin r) (e : Fin 16), matProd (fun i => Em i * Em i) S (ix2 p e)
      = ∑ f : Fin 26, Em (ix2 p (flat f e)) * Em (ix2 p (flat f e)) := fun p e =>
    matProd_selector (fun i => Em i * Em i) S hS p e
  have hfm : ∀ p : Fin r, fmK C w bc Fs Em S SW p = fm C w bc Fs Em p := fun p => by
    unfold fmK fm
    simp only [hsum, hsq]
  have hh : hiddenK C Em SW W1c b1 = layer2 C Em W1c W1e b1 := by
    unfold hiddenK layer2
    congr 1
    funext i
    obtain ⟨p, q, rfl⟩ : ∃ (p : Fin r) (q : Fin 400), i = ix2 p q := ⟨i 0, i 1, eq_ix2 i⟩
    exact congrArg (matProd C W1c (ix2 p q) + ·)
      (matProd_block Em Em W1e SW p (hi q) p q (fun _ => rfl) (fun c => hhi c q))
  funext i
  obtain ⟨p, q, rfl⟩ : ∃ (p : Fin r) (q : Fin 1), i = ix2 p q := ⟨i 0, i 1, eq_ix2 i⟩
  show (fmK C w bc Fs Em S SW p * _ + matProd (layer (hiddenK C Em SW W1c b1) W2 b2) wh _) + _
    = (fm C w bc Fs Em p * _ + _) + _
  rw [hfm, hh]

/-- Row y of the kernel-shaped function over a block whose row y is row r of the whole arrays, the weight arrays
    being the whole ones, is row r of the function with sums over fields over the whole arrays. -/
theorem K_block_eq_G_rows (A0 : Mat r 13) (A1 : Mat r 26) (A2 : Mat r 416) (x0 : Mat r' 13) (x1 : Mat r' 26)
    (x2 : Mat r' 416) (w : Mat 1 13) (bc : Mat 1 1) (S : Mat 416 16) (SW : Mat 416 416) (W1c : Mat 13 400)
    (W1e : Mat 416 400) (b1 : Mat 1 400) (W2 : Mat 400 400) (b2 : Mat 1 400) (wh : Mat 400 1) (wfm bo : Mat 1 1)
    (y : Fin r') (p : Fin r)
    (h0 : ∀ k : Fin 13, x0 (ix2 y k) = A0 (ix2 p k)) (h1 : ∀ f : Fin 26, x1 (ix2 y f) = A1 (ix2 p f))
    (h2 : ∀ c : Fin 416, x2 (ix2 y c) = A2 (ix2 p c))
    (hS : ∀ (c : Fin 416) (e : Fin 16), S (ix2 c e) = if c.val % 16 = e.val then 1 else 0)
    (hlo : ∀ (c : Fin 416) (e : Fin 16), SW (ix2 c (lo e)) = S (ix2 c e))
    (hhi : ∀ (c : Fin 416) (q : Fin 400), SW (ix2 c (hi q)) = W1e (ix2 c q)) :
    K x0 x1 x2 w bc S SW W1c b1 W2 b2 wh wfm bo (ix2 y 0) = G A0 A1 A2 w bc W1c W1e b1 W2 b2 wh wfm bo (ix2 p 0) := by
  rw [K_eq_G x0 x1 x2 w bc S SW W1c W1e b1 W2 b2 wh wfm bo hS hlo hhi]
  exact G_rows A0 x0 A1 x1 A2 x2 w bc W1c W1e b1 W2 b2 wh wfm bo y p h0 h1 h2

end Cert.DeepFM

end
-- ==== Proof.Body.lean ====
/-
  The kernel body's stored value is the kernel-shaped DeepFM row function of the blocks it loads.

  At the ideal instance a change of float format is the identity, a matrix product into a zero accumulator is the
  plain product, a sum along the lanes of a row is the sum over the row's entries, and a 1×n row broadcast down the
  rows reads its own entry. Reading the body's one stored value through these, entry (p, 0) of the block is
  `Cert.DeepFM.K` of the loaded blocks at row p: the factorization-machine part, whose sums over fields are products
  with the 0/1 matrix and with the joined matrix, times the output weight of that part, plus the second hidden
  layer times the output weights, plus the output bias.
-/
import proofs.«121431_j21732534518459_2_alg».proof.Proof.Gen.KernelIdeal.Skeleton
import proofs.«121431_j21732534518459_2_alg».proof.Proof.LibBlockReads
import proofs.«121431_j21732534518459_2_alg».proof.Proof.LibMatProd
import proofs.«121431_j21732534518459_2_alg».proof.Proof.LibRowReductions
import proofs.«121431_j21732534518459_2_alg».proof.Proof.LibBiasRelu
import proofs.«121431_j21732534518459_2_alg».proof.Proof.LibSplitLayers
import proofs.«121431_j21732534518459_2_alg».proof.Proof.DeepFM
import Idealize.ShloMosaic.Lib.ValueIdx
import Idealize.ShloMosaic.Lib.Pipeline.Value
import Idealize.ShloMosaic.PureOps.Ideal.Laws

open scoped BigOperators

noncomputable section

namespace Cert.KernelIdeal.Body

open Cert.KernelIdeal Cert.KernelIdeal.Gen Idealize.ShloMosaic Idealize.ShloMosaic.ValueIdx
  Cert.Lib.MatProd Cert.Lib.BiasRelu Cert.Lib.SplitLayers Cert.DeepFM

/-- Narrowing a float format is the identity on arrays of extended reals. -/
theorem truncf_self {s : Shape} {φ ψ : FTy} (a : FVec Ideal s φ) (h : ψ.bits < φ.bits) :
    (truncf ψ a h : FVec Ideal s ψ) = a := rfl

/-- Widening a float format is the identity on arrays of extended reals. -/
theorem extf_self {s : Shape} {φ ψ : FTy} (a : FVec Ideal s φ) (h : φ.bits < ψ.bits) :
    (extf ψ a h : FVec Ideal s ψ) = a := rfl

/-- The joined product Em · [S | W1e]. -/
theorem merged_eq (x2 : Vec Ideal S2048x416 .bf16) (x6 : Vec Ideal S416x416 .f32) :
    k0_pay2 (F := Ideal) x2 x6 = matProd x2 x6 := by
  unfold k0_pay2 k0_pay1
  dsimp only
  rw [shapeCast_self, shapeCast_self, truncf_self]
  exact matmul_zero_eq_matProd dot_S2048x416_S416x416_S2048x416_1_0_0_1_n_n rfl rfl rfl rfl rfl rfl none x2 x6

/-- Columns 16–415 of the joined product. -/
theorem upper_apply (x2 : Vec Ideal S2048x416 .bf16) (x6 : Vec Ideal S416x416 .f32) (p : Fin 2048) (q : Fin 400) :
    k0_pay3 (F := Ideal) x2 x6 (ix2 p q) = matProd x2 x6 (ix2 p (hi q)) := by
  unfold k0_pay3
  rw [merged_eq]
  refine extractStridedSlice_apply ![0, 16] _ slices_S2048x416_o0_16_S2048x400 (ix2 p q) (ix2 p (hi q)) fun a => ?_
  match a with
  | ⟨0, _⟩ => show p.val = 0 + p.val; omega
  | ⟨1, _⟩ => rfl

/-- Columns 0–15 of the joined product. -/
theorem lower_apply (x2 : Vec Ideal S2048x416 .bf16) (x6 : Vec Ideal S416x416 .f32) (p : Fin 2048) (e : Fin 16) :
    extractStridedSlice S2048x16 ![0, 0] (matProd x2 x6) slices_S2048x416_o0_0_S2048x16 (ix2 p e)
      = matProd x2 x6 (ix2 p (lo e)) := by
  refine extractStridedSlice_apply ![0, 0] _ slices_S2048x416_o0_0_S2048x16 (ix2 p e) (ix2 p (lo e)) fun a => ?_
  match a with
  | ⟨0, _⟩ => show p.val = 0 + p.val; omega
  | ⟨1, _⟩ => show e.val = 0 + e.val; omega

/-- The factorization-machine part of row p of the block. -/
theorem fm_apply (x0 : Vec Ideal S2048x13 .f32) (x1 : Vec Ideal S2048x26 .bf16) (x2 : Vec Ideal S2048x416 .bf16)
    (x3 : Vec Ideal S1x13 .f32) (x4 : Vec Ideal S1x1 .f32) (x5 : Vec Ideal S416x16 .f32) (x6 : Vec Ideal S416x416 .f32)
    (p : Fin 2048) :
    k0_pay4 (F := Ideal) x0 x1 x2 x3 x4 x5 x6 (ix2 p 0) = fmK x0 x3 x4 x1 x2 x5 x6 p := by
  unfold k0_pay4 k0_pay1
  simp only [shapeCast_self, truncf_self, extf_self, merged_eq]
  rw [matmul_zero_eq_matProd dot_S2048x416_S416x16_S2048x16_1_0_0_1_n_n rfl rfl rfl rfl rfl rfl]
  rw [addf_apply, addf_apply, addf_apply, mulf_apply, broadcast_apply,
    Cert.Lib.RowReductions.shapeCast_col_apply, Cert.Lib.RowReductions.shapeCast_col_apply,
    Cert.Lib.RowReductions.shapeCast_col_apply]
  erw [Cert.Lib.RowReductions.rowsum_apply, Cert.Lib.RowReductions.rowsum_apply,
    Cert.Lib.RowReductions.rowsum_apply]
  rw [Cert.Lib.BlockReads.broadcast_row_apply]
  simp only [mulf_apply, subf_apply, Cert.Lib.BlockReads.broadcast_row_apply, lower_apply]
  rfl

/-- The first hidden layer of the block. -/
theorem hidden_eq (x0 : Vec Ideal S2048x13 .f32) (x2 : Vec Ideal S2048x416 .bf16) (x6 : Vec Ideal S416x416 .f32)
    (x7 : Vec Ideal S13x400 .f32) (x8 : Vec Ideal S1x400 .f32) :
    biasRelu (addf (matProd x0 x7) (k0_pay3 (F := Ideal) x2 x6)) x8 = hiddenK x0 x2 x6 x7 x8 := by
  unfold hiddenK
  congr 1
  funext i
  obtain ⟨p, q, rfl⟩ : ∃ (p : Fin 2048) (q : Fin 400), i = ix2 p q := ⟨i 0, i 1, eq_ix2 i⟩
  rw [addf_apply, upper_apply]

/-- The body's stored value is the kernel-shaped row function of the loaded blocks. -/
theorem stored_eq (x0 : Vec Ideal S2048x13 .f32) (x1 : Vec Ideal S2048x26 .bf16) (x2 : Vec Ideal S2048x416 .bf16)
    (x3 : Vec Ideal S1x13 .f32) (x4 : Vec Ideal S1x1 .f32) (x5 : Vec Ideal S416x16 .f32) (x6 : Vec Ideal S416x416 .f32)
    (x7 : Vec Ideal S13x400 .f32) (x8 : Vec Ideal S1x400 .f32) (x9 : Vec Ideal S400x400 .f32)
    (x10 : Vec Ideal S1x400 .f32) (x11 : Vec Ideal S400x1 .f32) (x12 x13 : Vec Ideal S1x1 .f32) :
    k0_pay5 (F := Ideal) x0 (k0_pay3 x2 x6) (k0_pay4 x0 x1 x2 x3 x4 x5 x6) x7 x8 x9 x10 x12 x11 x13
      = K (r := 2048) x0 x1 x2 x3 x4 x5 x6 x7 x8 x9 x10 x11 x12 x13 := by
  funext i
  obtain ⟨p, q, rfl⟩ : ∃ (p : Fin 2048) (q : Fin 1), i = ix2 p q := ⟨i 0, i 1, eq_ix2 i⟩
  obtain rfl : q = 0 := Subsingleton.elim _ _
  unfold k0_pay5
  simp only [shapeCast_self, truncf_self]
  rw [matmul_zero_eq_matProd dot_S2048x13_S13x400_S2048x400_1_0_0_1_n_n rfl rfl rfl rfl rfl rfl,
    relu_bias_eq, relu_bias_eq, hidden_eq,
    matmul_zero_eq_matProd dot_S2048x400_S400x400_S2048x400_1_0_0_1_n_n rfl rfl rfl rfl rfl rfl,
    matmul_zero_eq_matProd dot_S2048x400_S400x1_S2048x1_1_0_0_1_n_n rfl rfl rfl rfl rfl rfl,
    addf_apply, addf_apply, mulf_apply, fm_apply, Cert.Lib.BlockReads.broadcast_row_apply,
    Cert.Lib.BlockReads.broadcast_row_apply]
  rfl

end Cert.KernelIdeal.Body

end
-- ==== Proof.Blocks.lean ====
/-
  From the blocks to the whole output column.

  The grid has 8 points; point t stages rows 2048·t … 2048·t + 2047 of the continuous features, of the gathered
  first-order weights and of the gathered embeddings, and every weight array whole, and writes back rows 2048·t …
  of the 16384×1 output. What it writes is the kernel-shaped row function of its blocks; the zero-one matrix the host
  built is 1 exactly where the row number is congruent to the column number modulo 16, and the joined matrix holds it
  in columns 0–15 and the embedding band of the first weight matrix in columns 16–415, so that function is the
  function with sums over fields; and each of its entries depends on one row, so block t is rows 2048·t … of that
  function of the whole arrays. The 8 blocks cover the column.
-/
import proofs.«121431_j21732534518459_2_alg».proof.Proof.Gen.KernelIdeal.Value
import proofs.«121431_j21732534518459_2_alg».proof.Proof.HostArrays
import proofs.«121431_j21732534518459_2_alg».proof.Proof.Body
import proofs.«121431_j21732534518459_2_alg».proof.Proof.DeepFM
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
  Idealize.ShloMosaic.ValueIdx Cert.DeepFM Cert.KernelIdeal.HostArrays
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 8 grid points: the three row-blocked inputs move with the output along
    the rows, every other input stays at block (0, 0), and the output's block number is at most 7. -/
theorem idx_facts : ∀ t : Fin cfg0.N,
    win0_0.index t (0 : Fin 2) = win0_14.index t (0 : Fin 2) ∧ win0_0.index t (1 : Fin 2) = 0
    ∧ win0_1.index t (0 : Fin 2) = win0_14.index t (0 : Fin 2) ∧ win0_1.index t (1 : Fin 2) = 0
    ∧ win0_2.index t (0 : Fin 2) = win0_14.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) ≤ 7 ∧ win0_14.index t (1 : Fin 2) = 0 :=
  (by decide +kernel : ∀ t : Fin grid0.N, _)

/-- Every block of rows is some point's. -/
theorem idx_onto : ∀ q : Fin 8, ∃ t : Fin cfg0.N, win0_14.index t = ![q.val, 0] :=
  (by decide +kernel : ∀ q : Fin 8, ∃ t : Fin grid0.N, win0_14.index t = ![q.val, 0])

/-- The array row that row y of point t's blocks is. -/
def rowOf (t : Fin cfg0.N) (y : Fin 2048) : Fin 16384 :=
  ⟨win0_14.index t (0 : Fin 2) * 2048 + y.val, by
    have h := (idx_facts t).2.2.2.2.2.2.2.2.2.2.2.2.2.2.2.2.2.2.2.2.2.2.2.2.2.2.2.2.1
    have := y.isLt
    omega⟩

/-- Row y of window 0's block at point t is row (block number)·2048 + y of its array. -/
theorem rows0 (c : Dev nD) (t : Fin cfg0.N) (y : Fin 2048) (k : Fin 13) :
    (iblk m c 0 t : S2048x13.Idx → EReal) (ix2 y k) = V m c main_arg0 (ix2 (rowOf t y) k) := by
  obtain ⟨a0, b0, a1, b1, a2, b2, a3, b3, a4, b4, a5, b5, a6, b6, a7, b7, a8, b8, a9, b9, a10, b10, a11, b11, a12, b12, a13, b13, -, -⟩ := idx_facts t
  show V m c main_arg0 (((cfg0.win 0).blk t).view.emb (ix2 y k)) = V m c main_arg0 (ix2 (rowOf t y) k)
  refine congrArg (V m c main_arg0) (funext fun a => Fin.ext ?_)
  match a with
  | ⟨0, _⟩ => show win0_0.index t (0 : Fin 2) * 2048 + 1 * y.val = win0_14.index t (0 : Fin 2) * 2048 + y.val; omega
  | ⟨1, _⟩ => show win0_0.index t (1 : Fin 2) * 13 + 1 * k.val = k.val; omega

/-- Row y of window 1's block at point t is row (block number)·2048 + y of its array. -/
theorem rows1 (c : Dev nD) (t : Fin cfg0.N) (y : Fin 2048) (k : Fin 26) :
    (iblk m c 1 t : S2048x26.Idx → EReal) (ix2 y k) = V m c main_v20 (ix2 (rowOf t y) k) := by
  obtain ⟨a0, b0, a1, b1, a2, b2, a3, b3, a4, b4, a5, b5, a6, b6, a7, b7, a8, b8, a9, b9, a10, b10, a11, b11, a12, b12, a13, b13, -, -⟩ := idx_facts t
  show V m c main_v20 (((cfg0.win 1).blk t).view.emb (ix2 y k)) = V m c main_v20 (ix2 (rowOf t y) k)
  refine congrArg (V m c main_v20) (funext fun a => Fin.ext ?_)
  match a with
  | ⟨0, _⟩ => show win0_1.index t (0 : Fin 2) * 2048 + 1 * y.val = win0_14.index t (0 : Fin 2) * 2048 + y.val; omega
  | ⟨1, _⟩ => show win0_1.index t (1 : Fin 2) * 26 + 1 * k.val = k.val; omega

/-- Row y of window 2's block at point t is row (block number)·2048 + y of its array. -/
theorem rows2 (c : Dev nD) (t : Fin cfg0.N) (y : Fin 2048) (k : Fin 416) :
    (iblk m c 2 t : S2048x416.Idx → EReal) (ix2 y k) = V m c main_v21 (ix2 (rowOf t y) k) := by
  obtain ⟨a0, b0, a1, b1, a2, b2, a3, b3, a4, b4, a5, b5, a6, b6, a7, b7, a8, b8, a9, b9, a10, b10, a11, b11, a12, b12, a13, b13, -, -⟩ := idx_facts t
  show V m c main_v21 (((cfg0.win 2).blk t).view.emb (ix2 y k)) = V m c main_v21 (ix2 (rowOf t y) k)
  refine congrArg (V m c main_v21) (funext fun a => Fin.ext ?_)
  match a with
  | ⟨0, _⟩ => show win0_2.index t (0 : Fin 2) * 2048 + 1 * y.val = win0_14.index t (0 : Fin 2) * 2048 + y.val; omega
  | ⟨1, _⟩ => show win0_2.index t (1 : Fin 2) * 416 + 1 * k.val = k.val; omega

/-- Window 3's block at every point is the whole array. -/
theorem whole3 (c : Dev nD) (t : Fin cfg0.N) : (iblk m c 3 t : S1x13.Idx → EReal) = V m c main_v36 := by
  obtain ⟨a0, b0, a1, b1, a2, b2, a3, b3, a4, b4, a5, b5, a6, b6, a7, b7, a8, b8, a9, b9, a10, b10, a11, b11, a12, b12, a13, b13, -, -⟩ := idx_facts t
  funext j
  show V m c main_v36 (((cfg0.win 3).blk t).view.emb j) = V m c main_v36 j
  refine congrArg (V m c main_v36) (funext fun a => Fin.ext ?_)
  match a with
  | ⟨0, _⟩ => show win0_3.index t (0 : Fin 2) * 1 + 1 * (j 0).val = (j 0).val; omega
  | ⟨1, _⟩ => show win0_3.index t (1 : Fin 2) * 13 + 1 * (j 1).val = (j 1).val; omega

/-- Window 4's block at every point is the whole array. -/
theorem whole4 (c : Dev nD) (t : Fin cfg0.N) : (iblk m c 4 t : S1x1.Idx → EReal) = V m c main_v37 := by
  obtain ⟨a0, b0, a1, b1, a2, b2, a3, b3, a4, b4, a5, b5, a6, b6, a7, b7, a8, b8, a9, b9, a10, b10, a11, b11, a12, b12, a13, b13, -, -⟩ := idx_facts t
  funext j
  show V m c main_v37 (((cfg0.win 4).blk t).view.emb j) = V m c main_v37 j
  refine congrArg (V m c main_v37) (funext fun a => Fin.ext ?_)
  match a with
  | ⟨0, _⟩ => show win0_4.index t (0 : Fin 2) * 1 + 1 * (j 0).val = (j 0).val; omega
  | ⟨1, _⟩ => show win0_4.index t (1 : Fin 2) * 1 + 1 * (j 1).val = (j 1).val; omega

/-- Window 5's block at every point is the whole array. -/
theorem whole5 (c : Dev nD) (t : Fin cfg0.N) : (iblk m c 5 t : S416x16.Idx → EReal) = V m c main_v30 := by
  obtain ⟨a0, b0, a1, b1, a2, b2, a3, b3, a4, b4, a5, b5, a6, b6, a7, b7, a8, b8, a9, b9, a10, b10, a11, b11, a12, b12, a13, b13, -, -⟩ := idx_facts t
  funext j
  show V m c main_v30 (((cfg0.win 5).blk t).view.emb j) = V m c main_v30 j
  refine congrArg (V m c main_v30) (funext fun a => Fin.ext ?_)
  match a with
  | ⟨0, _⟩ => show win0_5.index t (0 : Fin 2) * 416 + 1 * (j 0).val = (j 0).val; omega
  | ⟨1, _⟩ => show win0_5.index t (1 : Fin 2) * 16 + 1 * (j 1).val = (j 1).val; omega

/-- Window 6's block at every point is the whole array. -/
theorem whole6 (c : Dev nD) (t : Fin cfg0.N) : (iblk m c 6 t : S416x416.Idx → EReal) = V m c main_v33 := by
  obtain ⟨a0, b0, a1, b1, a2, b2, a3, b3, a4, b4, a5, b5, a6, b6, a7, b7, a8, b8, a9, b9, a10, b10, a11, b11, a12, b12, a13, b13, -, -⟩ := idx_facts t
  funext j
  show V m c main_v33 (((cfg0.win 6).blk t).view.emb j) = V m c main_v33 j
  refine congrArg (V m c main_v33) (funext fun a => Fin.ext ?_)
  match a with
  | ⟨0, _⟩ => show win0_6.index t (0 : Fin 2) * 416 + 1 * (j 0).val = (j 0).val; omega
  | ⟨1, _⟩ => show win0_6.index t (1 : Fin 2) * 416 + 1 * (j 1).val = (j 1).val; omega

/-- Window 7's block at every point is the whole array. -/
theorem whole7 (c : Dev nD) (t : Fin cfg0.N) : (iblk m c 7 t : S13x400.Idx → EReal) = V m c main_v31 := by
  obtain ⟨a0, b0, a1, b1, a2, b2, a3, b3, a4, b4, a5, b5, a6, b6, a7, b7, a8, b8, a9, b9, a10, b10, a11, b11, a12, b12, a13, b13, -, -⟩ := idx_facts t
  funext j
  show V m c main_v31 (((cfg0.win 7).blk t).view.emb j) = V m c main_v31 j
  refine congrArg (V m c main_v31) (funext fun a => Fin.ext ?_)
  match a with
  | ⟨0, _⟩ => show win0_7.index t (0 : Fin 2) * 13 + 1 * (j 0).val = (j 0).val; omega
  | ⟨1, _⟩ => show win0_7.index t (1 : Fin 2) * 400 + 1 * (j 1).val = (j 1).val; omega

/-- Window 8's block at every point is the whole array. -/
theorem whole8 (c : Dev nD) (t : Fin cfg0.N) : (iblk m c 8 t : S1x400.Idx → EReal) = V m c main_v38 := by
  obtain ⟨a0, b0, a1, b1, a2, b2, a3, b3, a4, b4, a5, b5, a6, b6, a7, b7, a8, b8, a9, b9, a10, b10, a11, b11, a12, b12, a13, b13, -, -⟩ := idx_facts t
  funext j
  show V m c main_v38 (((cfg0.win 8).blk t).view.emb j) = V m c main_v38 j
  refine congrArg (V m c main_v38) (funext fun a => Fin.ext ?_)
  match a with
  | ⟨0, _⟩ => show win0_8.index t (0 : Fin 2) * 1 + 1 * (j 0).val = (j 0).val; omega
  | ⟨1, _⟩ => show win0_8.index t (1 : Fin 2) * 400 + 1 * (j 1).val = (j 1).val; omega

/-- Window 9's block at every point is the whole array. -/
theorem whole9 (c : Dev nD) (t : Fin cfg0.N) : (iblk m c 9 t : S400x400.Idx → EReal) = V m c main_arg8 := by
  obtain ⟨a0, b0, a1, b1, a2, b2, a3, b3, a4, b4, a5, b5, a6, b6, a7, b7, a8, b8, a9, b9, a10, b10, a11, b11, a12, b12, a13, b13, -, -⟩ := idx_facts t
  funext j
  show V m c main_arg8 (((cfg0.win 9).blk t).view.emb j) = V m c main_arg8 j
  refine congrArg (V m c main_arg8) (funext fun a => Fin.ext ?_)
  match a with
  | ⟨0, _⟩ => show win0_9.index t (0 : Fin 2) * 400 + 1 * (j 0).val = (j 0).val; omega
  | ⟨1, _⟩ => show win0_9.index t (1 : Fin 2) * 400 + 1 * (j 1).val = (j 1).val; omega

/-- Window 10's block at every point is the whole array. -/
theorem whole10 (c : Dev nD) (t : Fin cfg0.N) : (iblk m c 10 t : S1x400.Idx → EReal) = V m c main_v39 := by
  obtain ⟨a0, b0, a1, b1, a2, b2, a3, b3, a4, b4, a5, b5, a6, b6, a7, b7, a8, b8, a9, b9, a10, b10, a11, b11, a12, b12, a13, b13, -, -⟩ := idx_facts t
  funext j
  show V m c main_v39 (((cfg0.win 10).blk t).view.emb j) = V m c main_v39 j
  refine congrArg (V m c main_v39) (funext fun a => Fin.ext ?_)
  match a with
  | ⟨0, _⟩ => show win0_10.index t (0 : Fin 2) * 1 + 1 * (j 0).val = (j 0).val; omega
  | ⟨1, _⟩ => show win0_10.index t (1 : Fin 2) * 400 + 1 * (j 1).val = (j 1).val; omega

/-- Window 11's block at every point is the whole array. -/
theorem whole11 (c : Dev nD) (t : Fin cfg0.N) : (iblk m c 11 t : S400x1.Idx → EReal) = V m c main_v35 := by
  obtain ⟨a0, b0, a1, b1, a2, b2, a3, b3, a4, b4, a5, b5, a6, b6, a7, b7, a8, b8, a9, b9, a10, b10, a11, b11, a12, b12, a13, b13, -, -⟩ := idx_facts t
  funext j
  show V m c main_v35 (((cfg0.win 11).blk t).view.emb j) = V m c main_v35 j
  refine congrArg (V m c main_v35) (funext fun a => Fin.ext ?_)
  match a with
  | ⟨0, _⟩ => show win0_11.index t (0 : Fin 2) * 400 + 1 * (j 0).val = (j 0).val; omega
  | ⟨1, _⟩ => show win0_11.index t (1 : Fin 2) * 1 + 1 * (j 1).val = (j 1).val; omega

/-- Window 12's block at every point is the whole array. -/
theorem whole12 (c : Dev nD) (t : Fin cfg0.N) : (iblk m c 12 t : S1x1.Idx → EReal) = V m c main_v34 := by
  obtain ⟨a0, b0, a1, b1, a2, b2, a3, b3, a4, b4, a5, b5, a6, b6, a7, b7, a8, b8, a9, b9, a10, b10, a11, b11, a12, b12, a13, b13, -, -⟩ := idx_facts t
  funext j
  show V m c main_v34 (((cfg0.win 12).blk t).view.emb j) = V m c main_v34 j
  refine congrArg (V m c main_v34) (funext fun a => Fin.ext ?_)
  match a with
  | ⟨0, _⟩ => show win0_12.index t (0 : Fin 2) * 1 + 1 * (j 0).val = (j 0).val; omega
  | ⟨1, _⟩ => show win0_12.index t (1 : Fin 2) * 1 + 1 * (j 1).val = (j 1).val; omega

/-- Window 13's block at every point is the whole array. -/
theorem whole13 (c : Dev nD) (t : Fin cfg0.N) : (iblk m c 13 t : S1x1.Idx → EReal) = V m c main_v40 := by
  obtain ⟨a0, b0, a1, b1, a2, b2, a3, b3, a4, b4, a5, b5, a6, b6, a7, b7, a8, b8, a9, b9, a10, b10, a11, b11, a12, b12, a13, b13, -, -⟩ := idx_facts t
  funext j
  show V m c main_v40 (((cfg0.win 13).blk t).view.emb j) = V m c main_v40 j
  refine congrArg (V m c main_v40) (funext fun a => Fin.ext ?_)
  match a with
  | ⟨0, _⟩ => show win0_13.index t (0 : Fin 2) * 1 + 1 * (j 0).val = (j 0).val; omega
  | ⟨1, _⟩ => show win0_13.index t (1 : Fin 2) * 1 + 1 * (j 1).val = (j 1).val; omega

/-! ## The joined matrix and the zero-one matrix, as the region finds them -/

/-- The embedding band (rows 13–428) of the first weight matrix. -/
def w1e (c : Dev nD) : S416x400.Idx → EReal :=
  extractStridedSlice S416x400 ![13, 0] (m ((c : Thread nD τ).loc main_arg6)) slices_S429x400_S416x400_13_0

theorem picks_fact (c : Dev nD) (j : Fin 416) (e : Fin 16) :
    (V m c main_v30 : S416x16.Idx → EReal) (ix2 j e) = if j.val % 16 = e.val then (1 : EReal) else 0 := by
  rw [picks_eq]
  exact picks_apply j e

theorem joined_lo (c : Dev nD) (j : Fin 416) (e : Fin 16) :
    (V m c main_v33 : S416x416.Idx → EReal) (ix2 j (lo e)) = (V m c main_v30 : S416x16.Idx → EReal) (ix2 j e) := by
  rw [joined_eq, picks_eq]
  refine concatenate_apply_piece (t := S416x416) (1 : Fin 2)
    ([⟨S416x16, picks⟩, ⟨S416x400, w1e m c⟩] : List ((s : Shape) × (s.Idx → EReal)))
    concatenates_S416x16_S416x400_S416x416_d1 (ix2 j (lo e)) 0 (by simp)
    S416x16 picks rfl rfl 0 rfl (ix2 j e) (fun b hb => ?_) (by show 0 + e.val = e.val; omega)
  match b with
  | ⟨0, _⟩ => rfl
  | ⟨1, _⟩ => exact absurd rfl hb

theorem joined_hi (c : Dev nD) (j : Fin 416) (q : Fin 400) :
    (V m c main_v33 : S416x416.Idx → EReal) (ix2 j (hi q)) = w1e m c (ix2 j q) := by
  rw [joined_eq]
  refine concatenate_apply_piece (t := S416x416) (1 : Fin 2)
    ([⟨S416x16, picks⟩, ⟨S416x400, w1e m c⟩] : List ((s : Shape) × (s.Idx → EReal)))
    concatenates_S416x16_S416x400_S416x416_d1 (ix2 j (hi q)) 1 (by simp)
    S416x400 (w1e m c) rfl rfl 16 (by show 16 + 0 = 16; rfl) (ix2 j q) (fun b hb => ?_)
    (by show 16 + q.val = 16 + q.val; rfl)
  match b with
  | ⟨0, _⟩ => rfl
  | ⟨1, _⟩ => exact absurd rfl hb

/-! ## What each point writes back, the cover, and the final array -/

/-- The output column as one function of the arrays the region finds. -/
def column (c : Dev nD) : S16384x1.Idx → EReal :=
  G (r := 16384) (V m c main_arg0 : S16384x13.Idx → EReal) (V m c main_v20 : S16384x26.Idx → EReal)
    (V m c main_v21 : S16384x416.Idx → EReal) (V m c main_v36 : S1x13.Idx → EReal) (V m c main_v37 : S1x1.Idx → EReal)
    (V m c main_v31 : S13x400.Idx → EReal) (w1e m c) (V m c main_v38 : S1x400.Idx → EReal)
    (V m c main_arg8 : S400x400.Idx → EReal) (V m c main_v39 : S1x400.Idx → EReal) (V m c main_v35 : S400x1.Idx → EReal)
    (V m c main_v34 : S1x1.Idx → EReal) (V m c main_v40 : S1x1.Idx → EReal)

/-- Point t writes back block t of the column. -/
theorem flushed_eq (c : Dev nD) (t : Fin cfg0.N) :
    (dats m 0 c).flushed 14 t = ((cfg0.win 14).blk t).view.read (Elt Ideal) (column m c) := by
  rw [Cert.KernelIdeal.Value.flushed14]
  unfold out0_14
  rw [View.canon_unit_zero hz]
  simp only [View.ld_unit_zero (S := S2048x13) hz, View.ld_unit_zero (S := S2048x26) hz, View.ld_unit_zero (S := S2048x416) hz, View.ld_unit_zero (S := S1x13) hz, View.ld_unit_zero (S := S1x1) hz, View.ld_unit_zero (S := S416x16) hz, View.ld_unit_zero (S := S416x416) hz, View.ld_unit_zero (S := S13x400) hz, View.ld_unit_zero (S := S1x400) hz, View.ld_unit_zero (S := S400x400) hz, View.ld_unit_zero (S := S400x1) hz]
  rw [Cert.KernelIdeal.Body.stored_eq]
  rw [whole3 m c t, whole4 m c t, whole5 m c t, whole6 m c t, whole7 m c t, whole8 m c t, whole9 m c t, whole10 m c t, whole11 m c t, whole12 m c t, whole13 m c t]
  obtain ⟨a0, b0, a1, b1, a2, b2, a3, b3, a4, b4, a5, b5, a6, b6, a7, b7, a8, b8, a9, b9, a10, b10, a11, b11, a12, b12, a13, b13, -, hq1⟩ := idx_facts t
  funext j
  obtain ⟨y, q, rfl⟩ : ∃ (y : Fin 2048) (q : Fin 1), j = ix2 y q := ⟨j 0, j 1, eq_ix2 j⟩
  obtain rfl : q = 0 := Subsingleton.elim _ _
  have hemb : ((cfg0.win 14).blk t).view.emb (ix2 y (0 : Fin 1)) = ix2 (rowOf t y) (0 : Fin 1) :=
    funext fun a => Fin.ext (by
      match a with
      | ⟨0, _⟩ => show win0_14.index t (0 : Fin 2) * 2048 + 1 * y.val = win0_14.index t (0 : Fin 2) * 2048 + y.val; omega
      | ⟨1, _⟩ => show win0_14.index t (1 : Fin 2) * 1 + 1 * 0 = 0; omega)
  show K (iblk m c 0 t : S2048x13.Idx → EReal) (iblk m c 1 t : S2048x26.Idx → EReal) (iblk m c 2 t : S2048x416.Idx → EReal)
      (V m c main_v36 : S1x13.Idx → EReal) (V m c main_v37 : S1x1.Idx → EReal) (V m c main_v30 : S416x16.Idx → EReal)
      (V m c main_v33 : S416x416.Idx → EReal) (V m c main_v31 : S13x400.Idx → EReal) (V m c main_v38 : S1x400.Idx → EReal)
      (V m c main_arg8 : S400x400.Idx → EReal) (V m c main_v39 : S1x400.Idx → EReal) (V m c main_v35 : S400x1.Idx → EReal)
      (V m c main_v34 : S1x1.Idx → EReal) (V m c main_v40 : S1x1.Idx → EReal) (ix2 y (0 : Fin 1))
    = column m c (((cfg0.win 14).blk t).view.emb (ix2 y (0 : Fin 1)))
  rw [hemb]
  exact K_block_eq_G_rows _ _ _ _ _ _ _ _ _ _ _ (w1e m c) _ _ _ _ _ _ y (rowOf t y)
    (rows0 m c t y) (rows1 m c t y) (rows2 m c t y) (picks_fact m c) (joined_lo m c) (joined_hi m c)

/-- An index of the column is in point t's block iff each coordinate is in the block's range on its axis. -/
theorem mem_blk (t : Fin cfg0.N) (i : S16384x1.Idx) :
    i ∈ ((cfg0.win 14).blk t).view.set ↔ ∀ a : Fin 2, win0_14.index t a * S2048x1.size a ≤ (i a).val
      ∧ (i a).val < win0_14.index t a * S2048x1.size a + S2048x1.size a := by
  show i ∈ ((View.whole main_v41).slice (win0_14.rect t)).set ↔ _
  rw [View.set_slice_whole, Rect.mem_set_unit]
  exact Iff.rfl

/-- The 8 blocks of 2048 rows cover the column: row r is in block r / 2048. -/
theorem cover (i : S16384x1.Idx) :
    ∃ t : Fin cfg0.N, (cfg0.win 14).flush t = true ∧ i ∈ ((cfg0.win 14).blk t).view.set := by
  have hi0 : (i 0).val < 16384 := (i 0).isLt
  have hi1 : (i 1).val < 1 := (i 1).isLt
  obtain ⟨t, ht⟩ := idx_onto ⟨(i 0).val / 2048, by omega⟩
  have q0 : win0_14.index t (0 : Fin 2) = (i 0).val / 2048 := congrFun ht 0
  have q1 : win0_14.index t (1 : Fin 2) = 0 := congrFun ht 1
  refine ⟨t, flush0_14 t, ?_⟩
  rw [mem_blk]
  intro a
  match a with
  | ⟨0, _⟩ =>
    show win0_14.index t (0 : Fin 2) * 2048 ≤ (i 0).val ∧ (i 0).val < win0_14.index t (0 : Fin 2) * 2048 + 2048
    omega
  | ⟨1, _⟩ =>
    show win0_14.index t (1 : Fin 2) * 1 ≤ (i 1).val ∧ (i 1).val < win0_14.index t (1 : Fin 2) * 1 + 1
    omega

/-- The output array after the run is the column. -/
theorem final (c : Dev nD) : (dats m 0 c).arrAt 14 cfg0.N = column m c :=
  (dats m 0 c).arrAt_eq_of_cover 14 (column m c) (fun t _ => flushed_eq m c t) cover

/-! ## The column over the launch contents -/

/-- The output column as one function of the argument arrays as launched. -/
def result (c : Dev nD) : S16384x1.Idx → EReal :=
  G (r := 16384) (m ((c : Thread nD τ).loc main_arg0))
    (shapeCast S16384x26 (firstRows (m ((c : Thread nD τ).loc main_arg1)) (m ((c : Thread nD τ).loc main_arg4)))
      shapeCasts_S16384x26x1_S16384x26)
    (shapeCast S16384x416 (embRows (m ((c : Thread nD τ).loc main_arg1)) (m ((c : Thread nD τ).loc main_arg5)))
      shapeCasts_S16384x26x16_S16384x416)
    (shapeCast S1x13 (m ((c : Thread nD τ).loc main_arg2)) shapeCasts_S13x1_S1x13)
    (shapeCast S1x1 (m ((c : Thread nD τ).loc main_arg3)) shapeCasts_S1_S1x1)
    (extractStridedSlice S13x400 ![0, 0] (m ((c : Thread nD τ).loc main_arg6)) slices_S429x400_S13x400_0_0)
    (w1e m c)
    (shapeCast S1x400 (m ((c : Thread nD τ).loc main_arg7)) shapeCasts_S400_S1x400)
    (m ((c : Thread nD τ).loc main_arg8))
    (shapeCast S1x400 (m ((c : Thread nD τ).loc main_arg9)) shapeCasts_S400_S1x400)
    (extractStridedSlice S400x1 ![1, 0] (m ((c : Thread nD τ).loc main_arg10)) slices_S401x1_S400x1_1_0)
    (extractStridedSlice S1x1 ![0, 0] (m ((c : Thread nD τ).loc main_arg10)) slices_S401x1_S1x1_0_0)
    (shapeCast S1x1 (m ((c : Thread nD τ).loc main_arg11)) shapeCasts_S1_S1x1)

theorem column_eq (c : Dev nD) : column m c = result m c := by
  unfold column result
  rw [V_main_arg0, V_main_arg8, first_eq, emb_eq, wrow_eq, bcont_eq, w1c_eq, b1_eq, b2_eq, wh_eq, wfm_eq, bout_eq]

/-- The kernel's run: every weakly fair execution ends with the output array at `result` and the arguments unchanged. -/
theorem run : θ_run defs (onTc (τ := τ) (main (F := Ideal))) ⟨m, fun _ => 0, ρ⟩ fun r => ∀ c : Dev nD,
      r.2.mem ((c : Thread nD τ).loc main_v41) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final m c).trans (column_eq m c)), (h c).2⟩)
    (Cert.KernelIdeal.Value.run_blocks m ρ)

end Cert.KernelIdeal.Blocks

end
-- ==== Proof.LibBands.lean ====
/-
  Arrays laid side by side, multiplied by a matrix cut into the matching bands of rows.

  The product of the side-by-side array [U | V | E] with a matrix Wm is, entry by entry, the sum of the products of U,
  V and E with the top, middle and bottom bands of Wm: the sum over the joined column index is the sum over U's columns
  plus the sum over V's plus the sum over E's. The bands may have different widths. The same with two arrays.
-/
import Idealize.ShloMosaic.PureOps.Ideal.Laws
import Idealize.ShloMosaic.Lib.ValueIdx
import Idealize.ShloMosaic.Lib.Pipeline.Value
import proofs.«121431_j21732534518459_2_alg».proof.Proof.LibMatProd
import proofs.«121431_j21732534518459_2_alg».proof.Proof.LibRowVector
import proofs.«121431_j21732534518459_2_alg».proof.Proof.LibBiasRelu
import proofs.«121431_j21732534518459_2_alg».proof.Proof.LibSplitLayers

open scoped BigOperators

noncomputable section

namespace Cert.Lib.Bands

open Idealize.ShloMosaic Idealize.ShloMosaic.ValueIdx Cert.Lib.MatProd Cert.Lib.BiasRelu Cert.Lib.RowVector
  Cert.Lib.SplitLayers

variable {r k₁ k₂ k₃ n : Nat}

/-- [U | V | E] · Wm, entry by entry, is the three products with Wm's bands. -/
theorem matProd_beside3 (U : (⟨2, ![r, k₁]⟩ : Shape).Idx → EReal) (V : (⟨2, ![r, k₂]⟩ : Shape).Idx → EReal)
    (E : (⟨2, ![r, k₃]⟩ : Shape).Idx → EReal) (Wm : (⟨2, ![k₁ + k₂ + k₃, n]⟩ : Shape).Idx → EReal)
    (hc : Shape.Concatenates (([⟨⟨2, ![r, k₁]⟩, U⟩, ⟨⟨2, ![r, k₂]⟩, V⟩, ⟨⟨2, ![r, k₃]⟩, E⟩] :
      List ((s : Shape) × (s.Idx → EReal))).map (·.1)) ⟨2, ![r, k₁ + k₂ + k₃]⟩ 1)
    (hs₁ : (⟨2, ![k₁ + k₂ + k₃, n]⟩ : Shape).Slices ![0, 0] ⟨2, ![k₁, n]⟩)
    (hs₂ : (⟨2, ![k₁ + k₂ + k₃, n]⟩ : Shape).Slices ![k₁, 0] ⟨2, ![k₂, n]⟩)
    (hs₃ : (⟨2, ![k₁ + k₂ + k₃, n]⟩ : Shape).Slices ![k₁ + k₂, 0] ⟨2, ![k₃, n]⟩) (p : Fin r) (q : Fin n) :
    matProd (concatenate ⟨2, ![r, k₁ + k₂ + k₃]⟩ 1 [⟨⟨2, ![r, k₁]⟩, U⟩, ⟨⟨2, ![r, k₂]⟩, V⟩, ⟨⟨2, ![r, k₃]⟩, E⟩] hc) Wm (ix2 p q)
      = matProd U (extractStridedSlice ⟨2, ![k₁, n]⟩ ![0, 0] Wm hs₁) (ix2 p q)
        + matProd V (extractStridedSlice ⟨2, ![k₂, n]⟩ ![k₁, 0] Wm hs₂) (ix2 p q)
        + matProd E (extractStridedSlice ⟨2, ![k₃, n]⟩ ![k₁ + k₂, 0] Wm hs₃) (ix2 p q) := by
  rw [matProd_apply, matProd_apply, matProd_apply, matProd_apply, Fin.sum_univ_add, Fin.sum_univ_add]
  congr 1
  · congr 1
    · refine Finset.sum_congr rfl fun c _ => ?_
      congr 1
      · refine concatenate_apply_piece (1 : Fin 2) [⟨⟨2, ![r, k₁]⟩, U⟩, ⟨⟨2, ![r, k₂]⟩, V⟩, ⟨⟨2, ![r, k₃]⟩, E⟩] hc
          (ix2 p (Fin.castAdd k₃ (Fin.castAdd k₂ c))) 0 (by simp) ⟨2, ![r, k₁]⟩ U rfl rfl 0 rfl (ix2 p c)
          (fun b hb => ?_) (by show 0 + c.val = c.val; omega)
        match b with
        | ⟨0, _⟩ => rfl
        | ⟨1, _⟩ => exact absurd rfl hb
      · refine (extractStridedSlice_apply ![0, 0] Wm hs₁ (ix2 c q) _ fun a => ?_).symm
        match a with
        | ⟨0, _⟩ => show c.val = 0 + c.val; omega
        | ⟨1, _⟩ => show q.val = 0 + q.val; omega
    · refine Finset.sum_congr rfl fun c _ => ?_
      congr 1
      · refine concatenate_apply_piece (1 : Fin 2) [⟨⟨2, ![r, k₁]⟩, U⟩, ⟨⟨2, ![r, k₂]⟩, V⟩, ⟨⟨2, ![r, k₃]⟩, E⟩] hc
          (ix2 p (Fin.castAdd k₃ (Fin.natAdd k₁ c))) 1 (by simp) ⟨2, ![r, k₂]⟩ V rfl rfl k₁ (by show k₁ + 0 = k₁; omega) (ix2 p c)
          (fun b hb => ?_) (by show k₁ + c.val = k₁ + c.val; rfl)
        match b with
        | ⟨0, _⟩ => rfl
        | ⟨1, _⟩ => exact absurd rfl hb
      · refine (extractStridedSlice_apply ![k₁, 0] Wm hs₂ (ix2 c q) _ fun a => ?_).symm
        match a with
        | ⟨0, _⟩ => show k₁ + c.val = k₁ + c.val; rfl
        | ⟨1, _⟩ => show q.val = 0 + q.val; omega
  · refine Finset.sum_congr rfl fun c _ => ?_
    congr 1
    · refine concatenate_apply_piece (1 : Fin 2) [⟨⟨2, ![r, k₁]⟩, U⟩, ⟨⟨2, ![r, k₂]⟩, V⟩, ⟨⟨2, ![r, k₃]⟩, E⟩] hc
        (ix2 p (Fin.natAdd (k₁ + k₂) c)) 2 (by simp) ⟨2, ![r, k₃]⟩ E rfl rfl (k₁ + k₂) (by show k₁ + (k₂ + 0) = k₁ + k₂; omega) (ix2 p c)
        (fun b hb => ?_) (by show k₁ + k₂ + c.val = k₁ + k₂ + c.val; rfl)
      match b with
      | ⟨0, _⟩ => rfl
      | ⟨1, _⟩ => exact absurd rfl hb
    · refine (extractStridedSlice_apply ![k₁ + k₂, 0] Wm hs₃ (ix2 c q) _ fun a => ?_).symm
      match a with
      | ⟨0, _⟩ => show k₁ + k₂ + c.val = k₁ + k₂ + c.val; rfl
      | ⟨1, _⟩ => show q.val = 0 + q.val; omega

/-- [U | V] · Wm, entry by entry, is the two products with Wm's bands. -/
theorem matProd_beside2 (U : (⟨2, ![r, k₁]⟩ : Shape).Idx → EReal) (V : (⟨2, ![r, k₂]⟩ : Shape).Idx → EReal)
    (Wm : (⟨2, ![k₁ + k₂, n]⟩ : Shape).Idx → EReal)
    (hc : Shape.Concatenates (([⟨⟨2, ![r, k₁]⟩, U⟩, ⟨⟨2, ![r, k₂]⟩, V⟩] :
      List ((s : Shape) × (s.Idx → EReal))).map (·.1)) ⟨2, ![r, k₁ + k₂]⟩ 1)
    (hs₁ : (⟨2, ![k₁ + k₂, n]⟩ : Shape).Slices ![0, 0] ⟨2, ![k₁, n]⟩)
    (hs₂ : (⟨2, ![k₁ + k₂, n]⟩ : Shape).Slices ![k₁, 0] ⟨2, ![k₂, n]⟩) (p : Fin r) (q : Fin n) :
    matProd (concatenate ⟨2, ![r, k₁ + k₂]⟩ 1 [⟨⟨2, ![r, k₁]⟩, U⟩, ⟨⟨2, ![r, k₂]⟩, V⟩] hc) Wm (ix2 p q)
      = matProd U (extractStridedSlice ⟨2, ![k₁, n]⟩ ![0, 0] Wm hs₁) (ix2 p q)
        + matProd V (extractStridedSlice ⟨2, ![k₂, n]⟩ ![k₁, 0] Wm hs₂) (ix2 p q) := by
  rw [matProd_apply, matProd_apply, matProd_apply, Fin.sum_univ_add]
  congr 1
  · refine Finset.sum_congr rfl fun c _ => ?_
    congr 1
    · refine concatenate_apply_piece (1 : Fin 2) [⟨⟨2, ![r, k₁]⟩, U⟩, ⟨⟨2, ![r, k₂]⟩, V⟩] hc
        (ix2 p (Fin.castAdd k₂ c)) 0 (by simp) ⟨2, ![r, k₁]⟩ U rfl rfl 0 rfl (ix2 p c)
        (fun b hb => ?_) (by show 0 + c.val = c.val; omega)
      match b with
      | ⟨0, _⟩ => rfl
      | ⟨1, _⟩ => exact absurd rfl hb
    · refine (extractStridedSlice_apply ![0, 0] Wm hs₁ (ix2 c q) _ fun a => ?_).symm
      match a with
      | ⟨0, _⟩ => show c.val = 0 + c.val; omega
      | ⟨1, _⟩ => show q.val = 0 + q.val; omega
  · refine Finset.sum_congr rfl fun c _ => ?_
    congr 1
    · refine concatenate_apply_piece (1 : Fin 2) [⟨⟨2, ![r, k₁]⟩, U⟩, ⟨⟨2, ![r, k₂]⟩, V⟩] hc
        (ix2 p (Fin.natAdd k₁ c)) 1 (by simp) ⟨2, ![r, k₂]⟩ V rfl rfl k₁ (by show k₁ + 0 = k₁; omega) (ix2 p c)
        (fun b hb => ?_) (by show k₁ + c.val = k₁ + c.val; rfl)
      match b with
      | ⟨0, _⟩ => rfl
      | ⟨1, _⟩ => exact absurd rfl hb
    · refine (extractStridedSlice_apply ![k₁, 0] Wm hs₂ (ix2 c q) _ fun a => ?_).symm
      match a with
      | ⟨0, _⟩ => show k₁ + c.val = k₁ + c.val; rfl
      | ⟨1, _⟩ => show q.val = 0 + q.val; omega

/-- The reference's spelling of a layer over three arrays side by side: one product of the concatenation with the
    whole matrix — the layer over the three arrays with the matrix's bands. -/
theorem host_layer3 (d : DotDims ⟨2, ![r, k₁ + k₂ + k₃]⟩ ⟨2, ![k₁ + k₂ + k₃, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (U : FVec Ideal ⟨2, ![r, k₁]⟩ .f32) (V : FVec Ideal ⟨2, ![r, k₂]⟩ .f32) (E : FVec Ideal ⟨2, ![r, k₃]⟩ .f32)
    (Wm : FVec Ideal ⟨2, ![k₁ + k₂ + k₃, n]⟩ .f32) (bm : FVec Ideal ⟨1, ![n]⟩ .f32)
    (hc : Shape.Concatenates (([⟨⟨2, ![r, k₁]⟩, U⟩, ⟨⟨2, ![r, k₂]⟩, V⟩, ⟨⟨2, ![r, k₃]⟩, E⟩] :
      List ((s : Shape) × (s.Idx → EReal))).map (·.1)) ⟨2, ![r, k₁ + k₂ + k₃]⟩ 1)
    (hs₁ : (⟨2, ![k₁ + k₂ + k₃, n]⟩ : Shape).Slices ![0, 0] ⟨2, ![k₁, n]⟩)
    (hs₂ : (⟨2, ![k₁ + k₂ + k₃, n]⟩ : Shape).Slices ![k₁, 0] ⟨2, ![k₂, n]⟩)
    (hs₃ : (⟨2, ![k₁ + k₂ + k₃, n]⟩ : Shape).Slices ![k₁ + k₂, 0] ⟨2, ![k₃, n]⟩)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none
        (concatenate ⟨2, ![r, k₁ + k₂ + k₃]⟩ 1 [⟨⟨2, ![r, k₁]⟩, U⟩, ⟨⟨2, ![r, k₂]⟩, V⟩, ⟨⟨2, ![r, k₃]⟩, E⟩] hc) Wm)
        (broadcastInDim ⟨2, ![r, n]⟩ ![0, 1] h2 (broadcastInDim ⟨2, ![1, n]⟩ ![1] h1 bm)))
      (broadcastInDim ⟨2, ![r, n]⟩ ![] h3 (constant (F := Ideal) ⟨0, ![]⟩ .f32 0x00000000#32))
    = layer3 U V E (extractStridedSlice ⟨2, ![k₁, n]⟩ ![0, 0] Wm hs₁)
        (extractStridedSlice ⟨2, ![k₂, n]⟩ ![k₁, 0] Wm hs₂) (extractStridedSlice ⟨2, ![k₃, n]⟩ ![k₁ + k₂, 0] Wm hs₃)
        (asRow bm) := by
  rw [Cert.Lib.BiasRelu.host_eq]
  unfold layer3
  congr 1
  refine (dotGeneral_eq_matProd d hlc hrc hln hrn hlb hrb none _ _ Wm).trans ?_
  funext i
  obtain ⟨p, q, rfl⟩ : ∃ (p : Fin r) (q : Fin n), i = ix2 p q := ⟨i 0, i 1, eq_ix2 i⟩
  exact matProd_beside3 U V E Wm hc hs₁ hs₂ hs₃ p q

/-- The same over two arrays side by side. -/
theorem host_layer2 (d : DotDims ⟨2, ![r, k₁ + k₂]⟩ ⟨2, ![k₁ + k₂, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (U : FVec Ideal ⟨2, ![r, k₁]⟩ .f32) (V : FVec Ideal ⟨2, ![r, k₂]⟩ .f32)
    (Wm : FVec Ideal ⟨2, ![k₁ + k₂, n]⟩ .f32) (bm : FVec Ideal ⟨1, ![n]⟩ .f32)
    (hc : Shape.Concatenates (([⟨⟨2, ![r, k₁]⟩, U⟩, ⟨⟨2, ![r, k₂]⟩, V⟩] :
      List ((s : Shape) × (s.Idx → EReal))).map (·.1)) ⟨2, ![r, k₁ + k₂]⟩ 1)
    (hs₁ : (⟨2, ![k₁ + k₂, n]⟩ : Shape).Slices ![0, 0] ⟨2, ![k₁, n]⟩)
    (hs₂ : (⟨2, ![k₁ + k₂, n]⟩ : Shape).Slices ![k₁, 0] ⟨2, ![k₂, n]⟩)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none
        (concatenate ⟨2, ![r, k₁ + k₂]⟩ 1 [⟨⟨2, ![r, k₁]⟩, U⟩, ⟨⟨2, ![r, k₂]⟩, V⟩] hc) Wm)
        (broadcastInDim ⟨2, ![r, n]⟩ ![0, 1] h2 (broadcastInDim ⟨2, ![1, n]⟩ ![1] h1 bm)))
      (broadcastInDim ⟨2, ![r, n]⟩ ![] h3 (constant (F := Ideal) ⟨0, ![]⟩ .f32 0x00000000#32))
    = layer2 U V (extractStridedSlice ⟨2, ![k₁, n]⟩ ![0, 0] Wm hs₁)
        (extractStridedSlice ⟨2, ![k₂, n]⟩ ![k₁, 0] Wm hs₂) (asRow bm) := by
  rw [Cert.Lib.BiasRelu.host_eq]
  unfold layer2
  congr 1
  refine (dotGeneral_eq_matProd d hlc hrc hln hrn hlb hrb none _ _ Wm).trans ?_
  funext i
  obtain ⟨p, q, rfl⟩ : ∃ (p : Fin r) (q : Fin n), i = ix2 p q := ⟨i 0, i 1, eq_ix2 i⟩
  exact matProd_beside2 U V Wm hc hs₁ hs₂ p q

end Cert.Lib.Bands

end
-- ==== Proof.RefValue.lean ====
/-
  The reference's result is the DeepFM row function of its own gathered arrays.

  The reference gathers the same first-order weights and embeddings, sums them over the fields directly, joins the
  continuous features and the flattened embeddings side by side before ONE product with the whole first weight matrix,
  and joins the factorization-machine column and the second hidden layer side by side before ONE product with the
  whole output weights. A product of arrays laid side by side with a matrix is the sum of the bands' products, a
  host sum from the zero initial value is the plain sum, and the reference's flattening of the embeddings puts
  coordinate e of field f at column 16·f + e; so its result is `Cert.DeepFM.G` of its arrays.
-/
import proofs.«121431_j21732534518459_2_alg».proof.Proof.Gen.ReferenceIdeal.Read
import proofs.«121431_j21732534518459_2_alg».proof.Proof.LibMatProd
import proofs.«121431_j21732534518459_2_alg».proof.Proof.LibRowVector
import proofs.«121431_j21732534518459_2_alg».proof.Proof.LibBiasRelu
import proofs.«121431_j21732534518459_2_alg».proof.Proof.LibSplitLayers
import proofs.«121431_j21732534518459_2_alg».proof.Proof.LibBands
import proofs.«121431_j21732534518459_2_alg».proof.Proof.FieldSums
import proofs.«121431_j21732534518459_2_alg».proof.Proof.DeepFM
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx
  Cert.Lib.MatProd Cert.Lib.BiasRelu Cert.Lib.RowVector Cert.Lib.SplitLayers Cert.Lib.Bands Cert.DeepFM

/-- The gathered first-order weights as a 16384×26 array. -/
def firstCols (x1 : IVec S16384x26 32) (x4 : S26x100000x1.Idx → EReal) : Mat 16384 26 := fun i =>
  val_main_v8 (F := Ideal) x1 x4 (ix3 (⟨(i 0).val, (i 0).isLt⟩ : Fin 16384) (⟨(i 1).val, idx2_lt1 i⟩ : Fin 26) (0 : Fin 1))

/-- The 13×1 weights of the continuous features as a 1×13 row. -/
def wRow (x2 : S13x1.Idx → EReal) : Mat 1 13 := fun i => x2 (ix2 (⟨(i 1).val, idx2_lt1 i⟩ : Fin 13) (0 : Fin 1))

/-- The first hidden layer: one product of [continuous | embeddings] with the whole matrix is the layer over the two
    bands. -/
theorem hidden1_eq (x0 : S16384x13.Idx → EReal) (x1 : IVec S16384x26 32) (x5 : S26x100000x16.Idx → EReal)
    (x6 : S429x400.Idx → EReal) (x7 : S400.Idx → EReal)
    (hs₁ : S429x400.Slices ![0, 0] ⟨2, ![13, 400]⟩) (hs₂ : S429x400.Slices ![13, 0] ⟨2, ![416, 400]⟩) :
    val_main_v40 (F := Ideal) x0 x1 x5 x6 x7
      = layer2 x0 (val_main_v34 (F := Ideal) x1 x5) (extractStridedSlice ⟨2, ![13, 400]⟩ ![0, 0] x6 hs₁)
          (extractStridedSlice ⟨2, ![416, 400]⟩ ![13, 0] x6 hs₂) (asRow x7) := by
  unfold val_main_v40 val_main_v39 val_main_v36 val_main_v35 val_main_v38 val_main_v37 val_main_call0_v0
    val_main_call0_cst
  exact host_layer2 (k₁ := 13) (k₂ := 416) dot_S16384x429_S429x400_S16384x400_1_0_0_1_n_n rfl rfl rfl rfl rfl rfl
    x0 (val_main_v34 (F := Ideal) x1 x5) x6 x7 concatenates_S16384x13_S16384x416_S16384x429_d1 hs₁ hs₂
    bcast_S400_S1x400_1 bcast_S1x400_S16384x400_0_1 bcast_S_S16384x400

/-- The second hidden layer. -/
theorem hidden2_eq (x0 : S16384x13.Idx → EReal) (x1 : IVec S16384x26 32) (x5 : S26x100000x16.Idx → EReal)
    (x6 : S429x400.Idx → EReal) (x7 : S400.Idx → EReal) (x8 : S400x400.Idx → EReal) (x9 : S400.Idx → EReal) :
    val_main_v45 (F := Ideal) x0 x1 x5 x6 x7 x8 x9 = layer (val_main_v40 (F := Ideal) x0 x1 x5 x6 x7) x8 (asRow x9) := by
  unfold val_main_v45 val_main_v44 val_main_v41 val_main_v43 val_main_v42 val_main_call1_v0 val_main_call1_cst
  exact host_layer dot_S16384x400_S400x400_S16384x400_1_0_0_1_n_n rfl rfl rfl rfl rfl rfl
    (val_main_v40 (F := Ideal) x0 x1 x5 x6 x7) x8 x9 bcast_S400_S1x400_1 bcast_S1x400_S16384x400_0_1 bcast_S_S16384x400

/-- The reference's flattening puts coordinate e of field f of row p at column 16·f + e. -/
theorem emb_at (x1 : IVec S16384x26 32) (x5 : S26x100000x16.Idx → EReal) (p : Fin 16384) (f : Fin 26) (e : Fin 16) :
    val_main_v34 (F := Ideal) x1 x5 (ix2 p (flat f e)) = val_main_v23 (F := Ideal) x1 x5 (ix3 p f e) := by
  rw [val_main_v34_apply]
  refine congrArg _ (funext fun a => Fin.ext ?_)
  have hp := p.isLt
  have hf := f.isLt
  have he := e.isLt
  match a with
  | ⟨0, _⟩ => show (p.val * 416 + (f.val * 16 + e.val)) / 416 = p.val; omega
  | ⟨1, _⟩ => show (p.val * 416 + (f.val * 16 + e.val)) / 16 % 26 = f.val; omega
  | ⟨2, _⟩ => show (p.val * 416 + (f.val * 16 + e.val)) % 16 = e.val; omega

/-- The zero word is zero. -/
theorem zero_word : FloatOps.ofBits (F := Ideal) .f32 0x00000000#32 = 0 := Ideal.ofBits_zero_f32

/-- The factorization-machine column of the reference. -/
theorem fm_eq (x0 : S16384x13.Idx → EReal) (x1 : IVec S16384x26 32) (x2 : S13x1.Idx → EReal) (x3 : S1.Idx → EReal)
    (x4 : S26x100000x1.Idx → EReal) (x5 : S26x100000x16.Idx → EReal) (p : Fin 16384) :
    val_main_v33 (F := Ideal) x0 x1 x2 x3 x4 x5 (ix2 p 0)
      = fm x0 (wRow x2) (asRow x3) (firstCols x1 x4) (val_main_v34 (F := Ideal) x1 x5) p := by
  have hsum : ∀ e : Fin 16, val_main_v24 (F := Ideal) x1 x5 (ix2 p e)
      = ∑ f : Fin 26, val_main_v34 (F := Ideal) x1 x5 (ix2 p (flat f e)) := fun e => by
    rw [val_main_v24_apply, show val_main_cst_3 (F := Ideal) (Shape.Idx.first h_S_) = 0 from zero_word, zero_add]
    refine Finset.sum_congr rfl fun f _ => ?_
    rw [emb_at]
    exact congrArg _ (funext fun a => by match a with | ⟨0, _⟩ => rfl | ⟨1, _⟩ => rfl | ⟨2, _⟩ => rfl)
  have hsq : ∀ e : Fin 16, val_main_v26 (F := Ideal) x1 x5 (ix2 p e)
      = ∑ f : Fin 26, val_main_v34 (F := Ideal) x1 x5 (ix2 p (flat f e)) * val_main_v34 (F := Ideal) x1 x5 (ix2 p (flat f e)) :=
    fun e => by
    rw [val_main_v26_apply, show val_main_cst_4 (F := Ideal) (Shape.Idx.first h_S_) = 0 from zero_word, zero_add]
    refine Finset.sum_congr rfl fun f _ => ?_
    rw [emb_at, val_main_v25_apply]
    exact congrArg (fun z => z * z) (congrArg _ (funext fun a => by match a with | ⟨0, _⟩ => rfl | ⟨1, _⟩ => rfl | ⟨2, _⟩ => rfl))
  have h9 : val_main_v9 (F := Ideal) x0 x2 (ix2 p 0) = ∑ k : Fin 13, x0 (ix2 p k) * wRow x2 (ix2 0 k) := by
    rw [val_main_v9_apply]
    refine Finset.sum_congr rfl fun k _ => ?_
    congr 1 <;> exact congrArg _ (funext fun a => by match a with | ⟨0, _⟩ => rfl | ⟨1, _⟩ => rfl)
  have h11 : val_main_v11 (F := Ideal) x3 (ix2 p 0) = asRow x3 (ix2 0 0) := by
    unfold val_main_v11 val_main_v10
    rw [bcastInDim_rows_apply, bcastInDim_eq_asRow]
  have h13 : val_main_v13 (F := Ideal) x1 x4 (ix2 p 0) = ∑ f : Fin 26, firstCols x1 x4 (ix2 p f) := by
    rw [val_main_v13_apply, show val_main_cst (F := Ideal) (Shape.Idx.first h_S_) = 0 from zero_word, zero_add]
    refine Finset.sum_congr rfl fun f _ => ?_
    exact congrArg _ (funext fun a => by match a with | ⟨0, _⟩ => rfl | ⟨1, _⟩ => rfl | ⟨2, _⟩ => rfl)
  have h31 : val_main_v31 (F := Ideal) (ix2 p 0) = half := by
    rw [val_main_v31_apply]
    rfl
  have h30 : val_main_v30 (F := Ideal) x1 x5 (ix2 p 0)
      = ∑ e : Fin 16, (val_main_v24 (F := Ideal) x1 x5 (ix2 p e) * val_main_v24 (F := Ideal) x1 x5 (ix2 p e)
          - val_main_v26 (F := Ideal) x1 x5 (ix2 p e)) := by
    rw [val_main_v30_apply, val_main_v29_apply, show val_main_cst_5 (F := Ideal) (Shape.Idx.first h_S_) = 0 from zero_word,
      zero_add]
    refine Finset.sum_congr rfl fun e _ => ?_
    have hi : idx_main_v29 (idx_main_v30 (ix2 p (0 : Fin 1))) e = ix2 p e :=
      funext fun a => by match a with | ⟨0, _⟩ => rfl | ⟨1, _⟩ => rfl
    rw [hi]
    rfl
  rw [val_main_v33_apply, val_main_v14_apply, val_main_v12_apply, val_main_v32_apply, h9, h11, h13, h31, h30]
  simp only [hsum, hsq]
  rfl

/-- The reference's result is the DeepFM function of its gathered arrays and the bands of its weight matrices. -/
theorem result_eq (x0 : S16384x13.Idx → EReal) (x1 : IVec S16384x26 32) (x2 : S13x1.Idx → EReal) (x3 : S1.Idx → EReal)
    (x4 : S26x100000x1.Idx → EReal) (x5 : S26x100000x16.Idx → EReal) (x6 : S429x400.Idx → EReal) (x7 : S400.Idx → EReal)
    (x8 : S400x400.Idx → EReal) (x9 : S400.Idx → EReal) (x10 : S401x1.Idx → EReal) (x11 : S1.Idx → EReal)
    (hs₁ : S429x400.Slices ![0, 0] ⟨2, ![13, 400]⟩) (hs₂ : S429x400.Slices ![13, 0] ⟨2, ![416, 400]⟩)
    (hs₃ : S401x1.Slices ![0, 0] ⟨2, ![1, 1]⟩) (hs₄ : S401x1.Slices ![1, 0] ⟨2, ![400, 1]⟩) :
    val_main_v50 (F := Ideal) x0 x1 x2 x3 x4 x5 x6 x7 x8 x9 x10 x11
      = G (r := 16384) x0 (firstCols x1 x4) (val_main_v34 (F := Ideal) x1 x5) (wRow x2) (asRow x3)
          (extractStridedSlice ⟨2, ![13, 400]⟩ ![0, 0] x6 hs₁) (extractStridedSlice ⟨2, ![416, 400]⟩ ![13, 0] x6 hs₂)
          (asRow x7) x8 (asRow x9) (extractStridedSlice ⟨2, ![400, 1]⟩ ![1, 0] x10 hs₄)
          (extractStridedSlice ⟨2, ![1, 1]⟩ ![0, 0] x10 hs₃) (asRow x11) := by
  funext i
  obtain ⟨p, q, rfl⟩ : ∃ (p : Fin 16384) (q : Fin 1), i = ix2 p q := ⟨i 0, i 1, eq_ix2 i⟩
  obtain rfl : q = 0 := Subsingleton.elim _ _
  have h47 : val_main_v47 (F := Ideal) x0 x1 x2 x3 x4 x5 x6 x7 x8 x9 x10 (ix2 p 0)
      = val_main_v33 (F := Ideal) x0 x1 x2 x3 x4 x5 (ix2 p 0) * extractStridedSlice ⟨2, ![1, 1]⟩ ![0, 0] x10 hs₃ (ix2 0 0)
        + matProd (val_main_v45 (F := Ideal) x0 x1 x5 x6 x7 x8 x9) (extractStridedSlice ⟨2, ![400, 1]⟩ ![1, 0] x10 hs₄)
            (ix2 p 0) := by
    unfold val_main_v47 val_main_v46
    refine (congrFun (dotGeneral_eq_matProd dot_S16384x401_S401x1_S16384x1_1_0_0_1_n_n rfl rfl rfl rfl rfl rfl none _ _ x10)
      (ix2 p 0)).trans ?_
    rw [matProd_beside2 (k₁ := 1) (k₂ := 400) (val_main_v33 (F := Ideal) x0 x1 x2 x3 x4 x5)
      (val_main_v45 (F := Ideal) x0 x1 x5 x6 x7 x8 x9) x10 concatenates_S16384x1_S16384x400_S16384x401_d1 hs₃ hs₄ p 0,
      matProd_apply, Fin.sum_univ_one]
  have h49 : val_main_v49 (F := Ideal) x11 (ix2 p 0) = asRow x11 (ix2 0 0) := by
    unfold val_main_v49 val_main_v48
    rw [bcastInDim_rows_apply, bcastInDim_eq_asRow]
  rw [val_main_v50_apply, h47, h49, fm_eq, hidden2_eq, hidden1_eq x0 x1 x5 x6 x7 hs₁ hs₂]
  rfl

end Cert.ReferenceIdeal.RefValue

end
-- ==== Proof.Join.lean ====
/-
  The two programs compute one function of the arguments.

  The kernel's output column is the DeepFM function of the gathered arrays its host operations prepare; the
  reference's result is the same function of its own gathered arrays. The two prepare the same arrays: the same
  wrapped categories select the same table rows (the kernel's tables differ from the reference's only by a change of
  float format, the identity on extended reals), the flattenings agree, a 13×1 column read as a 1×13 row and a vector
  read as a one-row array are re-shapings either way, and the bands of the weight matrices are the same slices.
-/
import proofs.«121431_j21732534518459_2_alg».proof.Proof.Blocks
import proofs.«121431_j21732534518459_2_alg».proof.Proof.RefValue
import proofs.«121431_j21732534518459_2_alg».proof.Proof.LibRowVector
import Idealize.ShloMosaic.Lib.ValueIdx
import Idealize.ShloMosaic.Lib.Pipeline.Value

noncomputable section

namespace Cert.Join

open Idealize.ShloMosaic Idealize.ShloMosaic.ValueIdx Cert.DeepFM Cert.Lib.RowVector

/-- The kernel's gathered first-order weights, re-shaped to 16384×26, are the reference's. -/
theorem first_same (x1 : IVec Cert.KernelIdeal.S16384x26 32) (x4 : Cert.KernelIdeal.S26x100000x1.Idx → EReal) :
    Cert.ReferenceIdeal.RefValue.firstCols x1 x4
      = shapeCast Cert.KernelIdeal.S16384x26 (Cert.KernelIdeal.HostArrays.firstRows x1 x4) Cert.KernelIdeal.Facts₀.shapeCasts_S16384x26x1_S16384x26 := by
  funext i
  obtain ⟨p, f, rfl⟩ : ∃ (p : Fin 16384) (f : Fin 26), i = ix2 p f := ⟨i 0, i 1, eq_ix2 i⟩
  refine Eq.symm (shapeCast_apply _ Cert.KernelIdeal.Facts₀.shapeCasts_S16384x26x1_S16384x26 (ix2 p f) (ix3 p f (0 : Fin 1)) ?_)
  rw [Shape.rowMajor_val_three, Shape.rowMajor_val_two]
  show (p.val * 26 + f.val) * 1 + 0 = p.val * 26 + f.val
  omega

/-- The kernel's gathered embeddings, flattened, are the reference's. -/
theorem emb_same (x1 : IVec Cert.KernelIdeal.S16384x26 32) (x5 : Cert.KernelIdeal.S26x100000x16.Idx → EReal) :
    Cert.ReferenceIdeal.Read.val_main_v34 (F := Ideal) x1 x5
      = shapeCast Cert.KernelIdeal.S16384x416 (Cert.KernelIdeal.HostArrays.embRows x1 x5) Cert.KernelIdeal.Facts₀.shapeCasts_S16384x26x16_S16384x416 := rfl

/-- A 13×1 column re-shaped to a 1×13 row reads entry k at (0, k). -/
theorem wrow_same (x2 : Cert.KernelIdeal.S13x1.Idx → EReal) :
    Cert.ReferenceIdeal.RefValue.wRow x2 = shapeCast Cert.KernelIdeal.S1x13 x2 Cert.KernelIdeal.Facts₀.shapeCasts_S13x1_S1x13 := by
  funext i
  rw [idx_row i]
  refine Eq.symm (shapeCast_apply x2 Cert.KernelIdeal.Facts₀.shapeCasts_S13x1_S1x13 (ix2 0 (i 1)) (ix2 (⟨(i 1).val, idx2_lt1 i⟩ : Fin 13) (0 : Fin 1)) ?_)
  rw [Shape.rowMajor_val_two, Shape.rowMajor_val_two]
  show (i 1).val * 1 + 0 = 0 * 13 + (i 1).val
  omega

/-- The reference's result is the kernel's function of the same arguments. -/
theorem same (x0 : Cert.KernelIdeal.S16384x13.Idx → EReal) (x1 : IVec Cert.KernelIdeal.S16384x26 32) (x2 : Cert.KernelIdeal.S13x1.Idx → EReal)
    (x3 : Cert.KernelIdeal.S1.Idx → EReal) (x4 : Cert.KernelIdeal.S26x100000x1.Idx → EReal) (x5 : Cert.KernelIdeal.S26x100000x16.Idx → EReal)
    (x6 : Cert.KernelIdeal.S429x400.Idx → EReal) (x7 : Cert.KernelIdeal.S400.Idx → EReal) (x8 : Cert.KernelIdeal.S400x400.Idx → EReal)
    (x9 : Cert.KernelIdeal.S400.Idx → EReal) (x10 : Cert.KernelIdeal.S401x1.Idx → EReal) (x11 : Cert.KernelIdeal.S1.Idx → EReal) :
    Cert.ReferenceIdeal.Read.val_main_v50 (F := Ideal) x0 x1 x2 x3 x4 x5 x6 x7 x8 x9 x10 x11
      = G (r := 16384) x0
          (shapeCast Cert.KernelIdeal.S16384x26 (Cert.KernelIdeal.HostArrays.firstRows x1 x4) Cert.KernelIdeal.Facts₀.shapeCasts_S16384x26x1_S16384x26)
          (shapeCast Cert.KernelIdeal.S16384x416 (Cert.KernelIdeal.HostArrays.embRows x1 x5) Cert.KernelIdeal.Facts₀.shapeCasts_S16384x26x16_S16384x416)
          (shapeCast Cert.KernelIdeal.S1x13 x2 Cert.KernelIdeal.Facts₀.shapeCasts_S13x1_S1x13)
          (shapeCast Cert.KernelIdeal.S1x1 x3 Cert.KernelIdeal.Facts₀.shapeCasts_S1_S1x1)
          (extractStridedSlice Cert.KernelIdeal.S13x400 ![0, 0] x6 Cert.KernelIdeal.Facts₀.slices_S429x400_S13x400_0_0)
          (extractStridedSlice Cert.KernelIdeal.S416x400 ![13, 0] x6 Cert.KernelIdeal.Facts₀.slices_S429x400_S416x400_13_0)
          (shapeCast Cert.KernelIdeal.S1x400 x7 Cert.KernelIdeal.Facts₀.shapeCasts_S400_S1x400) x8
          (shapeCast Cert.KernelIdeal.S1x400 x9 Cert.KernelIdeal.Facts₀.shapeCasts_S400_S1x400)
          (extractStridedSlice Cert.KernelIdeal.S400x1 ![1, 0] x10 Cert.KernelIdeal.Facts₀.slices_S401x1_S400x1_1_0)
          (extractStridedSlice Cert.KernelIdeal.S1x1 ![0, 0] x10 Cert.KernelIdeal.Facts₀.slices_S401x1_S1x1_0_0)
          (shapeCast Cert.KernelIdeal.S1x1 x11 Cert.KernelIdeal.Facts₀.shapeCasts_S1_S1x1) := by
  rw [Cert.ReferenceIdeal.RefValue.result_eq x0 x1 x2 x3 x4 x5 x6 x7 x8 x9 x10 x11 Cert.KernelIdeal.Facts₀.slices_S429x400_S13x400_0_0
    Cert.KernelIdeal.Facts₀.slices_S429x400_S416x400_13_0 Cert.KernelIdeal.Facts₀.slices_S401x1_S1x1_0_0 Cert.KernelIdeal.Facts₀.slices_S401x1_S400x1_1_0,
    first_same, emb_same, wrow_same, ← shapeCast_eq_asRow x3 Cert.KernelIdeal.Facts₀.shapeCasts_S1_S1x1,
    ← shapeCast_eq_asRow x7 Cert.KernelIdeal.Facts₀.shapeCasts_S400_S1x400, ← shapeCast_eq_asRow x9 Cert.KernelIdeal.Facts₀.shapeCasts_S400_S1x400,
    ← shapeCast_eq_asRow x11 Cert.KernelIdeal.Facts₀.shapeCasts_S1_S1x1]

end Cert.Join

end
-- ==== Proof.lean ====
/-
  DeepFM on 16384 rows: the kernel and its reference agree on the extended reals.

  Both programs gather, per batch row and field, a first-order weight and a 16-coordinate embedding, and compute
      out = (C·w + bc + Σ_f first_f + ½·Σ_e ((Σ_f emb_{f,e})² − Σ_f emb_{f,e}²)) · wfm + h₂ · wh + bo,
  h₁ = max([C | emb] · W1 + b1, 0), h₂ = max(h₁ · W2 + b2, 0). The kernel tiles the rows into 8 blocks of 2048, takes
  the sums over fields as products with a zero-one matrix, reads the embedding band of the first layer off the same
  joined product, and splits the products of side-by-side arrays into the sums of the bands' products; at the ideal
  instance these are the same sums, and the changes of float format are identities. Each entry of the result depends
  on one batch row, so the blocks are the rows of one whole-array function (Proof/Blocks.lean); the reference's
  result is that function of the same arguments (Proof/RefValue.lean, Proof/Join.lean). No finiteness of the inputs
  is used: only x·1 = x, x·0 = 0, 0 + x = x and the regrouping of sums of extended reals.

  The three frames are the generated ones (the reference's is its generated run with the result dropped); the ideal
  pass rewrote nothing, so the kernel's idealization is its own text and that conjunct is trivial.
-/
import proofs.«121431_j21732534518459_2_alg».proof.Defs
import proofs.«121431_j21732534518459_2_alg».proof.Proof.Gen.Kernel
import proofs.«121431_j21732534518459_2_alg».proof.Proof.Gen.Kernel.Skeleton
import proofs.«121431_j21732534518459_2_alg».proof.Proof.Gen.Kernel.Launch
import proofs.«121431_j21732534518459_2_alg».proof.Proof.Gen.Kernel.Points
import proofs.«121431_j21732534518459_2_alg».proof.Proof.Gen.Kernel.Frame
import proofs.«121431_j21732534518459_2_alg».proof.Proof.Gen.KernelIdeal
import proofs.«121431_j21732534518459_2_alg».proof.Proof.Gen.KernelIdeal.Skeleton
import proofs.«121431_j21732534518459_2_alg».proof.Proof.Gen.KernelIdeal.Launch
import proofs.«121431_j21732534518459_2_alg».proof.Proof.Gen.KernelIdeal.Points
import proofs.«121431_j21732534518459_2_alg».proof.Proof.Gen.KernelIdeal.Frame
import proofs.«121431_j21732534518459_2_alg».proof.Proof.Gen.ReferenceIdeal
import proofs.«121431_j21732534518459_2_alg».proof.Proof.Gen.Pre_finite_inputs
import proofs.«121431_j21732534518459_2_alg».proof.Proof.Gen.KernelIdeal.Value
import proofs.«121431_j21732534518459_2_alg».proof.Proof.Gen.ReferenceIdeal.Run
import proofs.«121431_j21732534518459_2_alg».proof.Proof.Gen.ReferenceIdeal.Read
import proofs.«121431_j21732534518459_2_alg».proof.Proof.Blocks
import proofs.«121431_j21732534518459_2_alg».proof.Proof.RefValue
import proofs.«121431_j21732534518459_2_alg».proof.Proof.Join
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel ends with its output at the DeepFM function of the arguments
    (Proof/Blocks.lean), and the reference with its result at the same function (Proof/Join.lean). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v50_eq, h0, h1, h2, h3, h4, h5, h6, h7, h8, h9, h10, h11]
  exact Cert.Join.same _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
